-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S131072 : Shape := ⟨1, ![131072]⟩
abbrev S256x8 : Shape := ⟨2, ![256, 8]⟩
abbrev S256 : Shape := ⟨1, ![256]⟩
abbrev S262144 : Shape := ⟨1, ![262144]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg7 : FVec F S262144 .f32) (main_v13 : IVec S_ 1) (main_v16 : IVec S256x8 1) : IVec S_ 1 :=
  let main_c_5 : IVec S_ 1 := constantI S_ 1 1#1
  let main_v17 : IVec S_ 1 := (fun x v => Host.reduce IntOp.andi x v reducesTo_S256x8_S_d0_1 h_S_) main_v16 main_c_5
  let main_v18 : IVec S_ 1 := andi main_v13 main_v17
  let main_v19 : FVec F S262144 .f32 := Host.absf main_arg7
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  main_v23

def fn {F : FTy → Type} [FloatOps F] (main_arg0 : FVec F S4x128x4096 .f32) (main_arg1 : IVec S131072 32) (main_arg2 : FVec F S256x8 .f32) (main_arg3 : FVec F S256 .f32) (main_arg4 : IVec S131072 32) (main_arg5 : FVec F S256x8 .f32) (main_arg6 : IVec S262144 32) (main_arg7 : FVec F S262144 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S256x8 .f32 := Host.absf main_arg2
  let main_cst_0 : FVec F S_ .f32 := constant S_ .f32 0x7F800000#32
  let main_v5 : FVec F S256x8 .f32 := broadcastInDim S256x8 ![] bcast_S_S256x8 main_cst_0
  let main_v6 : IVec S256x8 1 := cmpf .olt main_v4 main_v5
  let main_c_1 : IVec S_ 1 := constantI S_ 1 1#1
  let main_v7 : IVec S_ 1 := (fun x v => Host.reduce IntOp.andi x v reducesTo_S256x8_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x8 .f32 := Host.absf main_arg5
  let main_cst_4 : FVec F S_ .f32 := constant S_ .f32 0x7F800000#32
  let main_v15 : FVec F S256x8 .f32 := broadcastInDim S256x8 ![] bcast_S_S256x8 main_cst_4
  let main_v16 : IVec S256x8 1 := cmpf .olt main_v14 main_v15
  fn_part1 (F := F) main_arg7 main_v13 main_v16
-- ==== Kernel.lean ====
abbrev S4x128x4096 : Shape := ⟨3, ![4, 128, 4096]⟩
abbrev S131072 : Shape := ⟨1, ![131072]⟩
abbrev S256x8 : Shape := ⟨2, ![256, 8]⟩
abbrev S256 : Shape := ⟨1, ![256]⟩
abbrev S262144 : Shape := ⟨1, ![262144]⟩
abbrev S_ : Shape := ⟨0, ![]⟩
abbrev S131072x1 : Shape := ⟨2, ![131072, 1]⟩
abbrev S131072x8 : Shape := ⟨2, ![131072, 8]⟩
abbrev S4096x256 : Shape := ⟨2, ![4096, 256]⟩
abbrev S256x4096 : Shape := ⟨2, ![256, 4096]⟩
abbrev S1x256 : Shape := ⟨2, ![1, 256]⟩
abbrev S4096x4096 : Shape := ⟨2, ![4096, 4096]⟩
abbrev S1024x256 : Shape := ⟨2, ![1024, 256]⟩
abbrev S256x1024 : Shape := ⟨2, ![256, 1024]⟩
abbrev S1024x1024 : Shape := ⟨2, ![1024, 1024]⟩
abbrev S16777216 : Shape := ⟨1, ![16777216]⟩
abbrev S262144x1 : Shape := ⟨2, ![262144, 1]⟩
abbrev S512x4096 : Shape := ⟨2, ![512, 4096]⟩
abbrev S512x1024 : Shape := ⟨2, ![512, 1024]⟩

abbrev nBuf : Space → Nat
  | .hbm => 44
  | .vmem => 14
  | .smem => 0
  | _ => 0

abbrev bufTy : (tb : Table) → Fin (tcTables nBuf tb) → BufTy
  | .hbm, ⟨0, _⟩ => ⟨S4x128x4096, .f32⟩
  | .hbm, ⟨1, _⟩ => ⟨S131072, .i32⟩
  | .hbm, ⟨2, _⟩ => ⟨S256x8, .f32⟩
  | .hbm, ⟨3, _⟩ => ⟨S256, .f32⟩
  | .hbm, ⟨4, _⟩ => ⟨S131072, .i32⟩
  | .hbm, ⟨5, _⟩ => ⟨S256x8, .f32⟩
  | .hbm, ⟨6, _⟩ => ⟨S262144, .i32⟩
  | .hbm, ⟨7, _⟩ => ⟨S262144, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072x8, .f32⟩
  | .hbm, ⟨17, _⟩ => ⟨S4096x256, .f32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x8, .f32⟩
  | .hbm, ⟨27, _⟩ => ⟨S256x4096, .f32⟩
  | .hbm, ⟨28, _⟩ => ⟨S1x256, .f32⟩
  | .hbm, ⟨29, _⟩ => ⟨S4096x4096, .f32⟩
  | .hbm, ⟨30, _⟩ => ⟨S16777216, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S16777216, .f32⟩
  | .hbm, ⟨40, _⟩ => ⟨S4096x4096, .f32⟩
  | .hbm, ⟨41, _⟩ => ⟨S512x4096, .f32⟩
  | .hbm, ⟨42, _⟩ => ⟨S512x4096, .f32⟩
  | .hbm, ⟨43, _⟩ => ⟨S4x128x4096, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S256x1024, .f32⟩
  | .local _ .vmem, ⟨4, _⟩ => ⟨S256x1024, .f32⟩
  | .local _ .vmem, ⟨5, _⟩ => ⟨S1024x1024, .f32⟩
  | .local _ .vmem, ⟨6, _⟩ => ⟨S1024x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | .local _ .vmem, ⟨10, _⟩ => ⟨S1024x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x8_S4096x256 : S131072x8.ShapeCasts S4096x256
  shapeCasts_S131072x8_S256x4096 : S131072x8.ShapeCasts S256x4096
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S4096x4096_S16777216 : S4096x4096.ShapeCasts S16777216
  bcast_S_S262144 : S_.BroadcastsInDim S262144 (![] : Fin 0 → Fin S262144.rank)
  bcast_S262144_S262144x1_0 : S262144.BroadcastsInDim S262144x1 (![0] : Fin 1 → Fin S262144x1.rank)
  shapeCasts_S16777216_S4096x4096 : S16777216.ShapeCasts S4096x4096
  shapeCasts_S4x128x4096_S512x4096 : S4x128x4096.ShapeCasts S512x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  shapeCasts_S512x4096_S4x128x4096 : S512x4096.ShapeCasts S4x128x4096
  gather_S256x8_S131072x1_S131072x8_1_0_n_n_0_1_18_wf : GatherDims.WF S256x8 S131072x1 S131072x8 [1] [0] [] [0] [] 1 ![1, 8]
  dot_S1024x256_S256x1024_S1024x1024_1_0_0_1_n_n_wf : DotDims.WF S1024x256 S256x1024 S1024x1024 [1] [0] [0] [1] [] []
  scatter_S16777216_S262144x1_S262144_n_0_0_1_wf : ScatterDims.WF S16777216 S262144x1 S262144 [] [0] [0] 1
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x4096.size a
  hwx1_0 : ∀ i : grid1.Coords, EltTy.bits .f32 = 32 ∨ (Rect.block (s := S512x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x4096.size a
  hwx1_2 : ∀ i : grid1.Coords, EltTy.bits .f32 = 32 ∨ (Rect.block (s := S512x4096) S512x1024.size (cc1_transform_2 i) (hinb1_2 i)).WholeWords (EltTy.packing .f32)

variable [Facts₀]

def gather_S256x8_S131072x1_S131072x8_1_0_n_n_0_1_18 : GatherDims S256x8 S131072x1 S131072x8 where
  offsetDims := [1]
  collapsedSliceDims := [0]
  operandBatchingDims := []
  startIndicesBatchingDims := []
  startIndexMap := [0]
  indexVectorDim := 1
  sliceSizes := ![1, 8]
  wf := gather_S256x8_S131072x1_S131072x8_1_0_n_n_0_1_18_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x128x4096 : Shape := ⟨3, ![4, 128, 4096]⟩
abbrev S131072 : Shape := ⟨1, ![131072]⟩
abbrev S256x8 : Shape := ⟨2, ![256, 8]⟩
abbrev S256 : Shape := ⟨1, ![256]⟩
abbrev S262144 : Shape := ⟨1, ![262144]⟩
abbrev S_ : Shape := ⟨0, ![]⟩
abbrev S131072x1 : Shape := ⟨2, ![131072, 1]⟩
abbrev S131072x8 : Shape := ⟨2, ![131072, 8]⟩
abbrev S4096x256 : Shape := ⟨2, ![4096, 256]⟩
abbrev S256x4096 : Shape := ⟨2, ![256, 4096]⟩
abbrev S1x256 : Shape := ⟨2, ![1, 256]⟩
abbrev S4096x4096 : Shape := ⟨2, ![4096, 4096]⟩
abbrev S16777216 : Shape := ⟨1, ![16777216]⟩
abbrev S262144x1 : Shape := ⟨2, ![262144, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S131072, .i32⟩
  | .hbm, ⟨2, _⟩ => ⟨S256x8, .f32⟩
  | .hbm, ⟨3, _⟩ => ⟨S256, .f32⟩
  | .hbm, ⟨4, _⟩ => ⟨S131072, .i32⟩
  | .hbm, ⟨5, _⟩ => ⟨S256x8, .f32⟩
  | .hbm, ⟨6, _⟩ => ⟨S262144, .i32⟩
  | .hbm, ⟨7, _⟩ => ⟨S262144, .f32⟩
  | .hbm, ⟨8, _⟩ => ⟨S_, .i32⟩
  | .hbm, ⟨9, _⟩ => ⟨S131072, .i32⟩
  | .hbm, ⟨10, _⟩ => ⟨S131072, .i1⟩
  | .hbm, ⟨11, _⟩ => ⟨S_, .i32⟩
  | .hbm, ⟨12, _⟩ => ⟨S131072, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S131072x8, .f32⟩
  | .hbm, ⟨17, _⟩ => ⟨S4096x256, .f32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x8, .f32⟩
  | .hbm, ⟨27, _⟩ => ⟨S256x4096, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S4096x4096, .f32⟩
  | .hbm, ⟨32, _⟩ => ⟨S16777216, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S16777216, .f32⟩
  | .hbm, ⟨42, _⟩ => ⟨S4096x4096, .f32⟩
  | .hbm, ⟨43, _⟩ => ⟨S4x128x4096, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x8_S4096x256 : S131072x8.ShapeCasts S4096x256
  shapeCasts_S131072x8_S256x4096 : S131072x8.ShapeCasts S256x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  shapeCasts_S4096x4096_S16777216 : S4096x4096.ShapeCasts S16777216
  bcast_S_S262144 : S_.BroadcastsInDim S262144 (![] : Fin 0 → Fin S262144.rank)
  bcast_S262144_S262144x1_0 : S262144.BroadcastsInDim S262144x1 (![0] : Fin 1 → Fin S262144x1.rank)
  shapeCasts_S16777216_S4096x4096 : S16777216.ShapeCasts S4096x4096
  gather_S256x8_S131072x1_S131072x8_1_0_n_n_0_1_18_wf : GatherDims.WF S256x8 S131072x1 S131072x8 [1] [0] [] [0] [] 1 ![1, 8]
  dot_S4096x256_S256x4096_S4096x4096_1_0_0_1_n_n_wf : DotDims.WF S4096x256 S256x4096 S4096x4096 [1] [0] [0] [1] [] []
  scatter_S16777216_S262144x1_S262144_n_0_0_1_wf : ScatterDims.WF S16777216 S262144x1 S262144 [] [0] [0] 1
  dot_S4x128x4096_S4096x4096_S4x128x4096_2_1_01_0_n_n_wf : DotDims.WF S4x128x4096 S4096x4096 S4x128x4096 [2] [1] [0, 1] [0] [] []

variable [Facts₀]

def gather_S256x8_S131072x1_S131072x8_1_0_n_n_0_1_18 : GatherDims S256x8 S131072x1 S131072x8 where
  offsetDims := [1]
  collapsedSliceDims := [0]
  operandBatchingDims := []
  startIndicesBatchingDims := []
  startIndexMap := [0]
  indexVectorDim := 1
  sliceSizes := ![1, 8]
  wf := gather_S256x8_S131072x1_S131072x8_1_0_n_n_0_1_18_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf
def dot_S4x128x4096_S4096x4096_S4x128x4096_2_1_01_0_n_n : DotDims S4x128x4096 S4096x4096 S4x128x4096 where
  lhsContracting := [2]
  rhsContracting := [1]
  lhsNonContracting := [0, 1]
  rhsNonContracting := [0]
  lhsBatch := []
  rhsBatch := []
  wf := dot_S4x128x4096_S4096x4096_S4x128x4096_2_1_01_0_n_n_wf

class Facts : Prop extends Facts₀ where

variable [Facts]
-- ==== Proof.ReconstructBits.lean ====
/-
  The first pallas_call, a grid of 4 × 4 points: at the point (i, j) the body reads a 1024 × 256 block of the left
  factor (block row i), the whole 1 × 256 row of scales, and a 256 × 1024 block of the right factor (block column j),
  and stores into the (i, j) block of the product the matrix product of the scaled left block with the right block,
  accumulated from zero. Nothing is kept between points and every point stores its whole output block, so what a
  point leaves is a function of the three input blocks alone.
-/
import proofs.«176107_j24721831756588_1_alg».proof.Proof.Gen.Kernel.Launch
import proofs.«176107_j24721831756588_1_alg».proof.Proof.Gen.Kernel.Skeleton
import proofs.«176107_j24721831756588_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reconstruct

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the call is entered: a parameter of everything below.
variable (V : (c : Dev nD) → (b : Ref sig .tc) → Buf (Elt F) ((c : Thread nD τ).loc b))

/-- The block of operand `w` that the point `t` works on, read off the operand's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds its block at every point, whether the pipeline fetched it there or the
    block index did not move since the last fetch: the body never stores into an input. -/
theorem held0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rU : Rect S1024x256 := Rect.unit (s := S1024x256) ![0, 0] S1024x256.size inb_S1024x256_S1024x256_0_0
abbrev rS : Rect S1x256 := Rect.unit (s := S1x256) ![0, 0] S1x256.size inb_S1x256_S1x256_0_0
abbrev rV : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What a point leaves in the product's staging buffer: its one store, of the body's arithmetic on the three blocks. -/
def prodBlock (xU : Vec F S1024x256 .f32) (xS : Vec F S1x256 .f32) (xV : Vec F S256x1024 .f32) : Vec F S1024x1024 .f32 :=
  View.canon [⟨rW, k0_pay1 (View.ld xU rU) (View.ld xS rS) (View.ld xV rV)⟩]

/-- The one store covers the whole buffer. -/
theorem prodCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

set_option maxHeartbeats 1000000 in
/-- The body's triple: on whole staging buffers, the inputs' at `xU`, `xS`, `xV` and the output's at anything, it
    runs to its end with the inputs untouched and the output's buffer at `prodBlock` of them. -/
theorem body_triple (c : Dev nD) (E : Set ℕ) (i : grid0.Coords) (arg2 : Memref sig .tc .vmem S1024x256 .f32) (harg2 : arg2.IsWhole)
    (arg3 : Memref sig .tc .vmem S1x256 .f32) (harg3 : arg3.IsWhole) (arg4 : Memref sig .tc .vmem S256x1024 .f32) (harg4 : arg4.IsWhole)
    (arg5 : Memref sig .tc .vmem S1024x1024 .f32) (harg5 : arg5.IsWhole)
    (xU : Vec F S1024x256 .f32) (xS : Vec F S1x256 .f32) (xV : Vec F S256x1024 .f32) (K : PUnit → sProp 𝕄) :
    iprop(owns (c : Thread nD τ) arg2 fullShare xU ∗ owns (c : Thread nD τ) arg3 fullShare xS ∗ owns (c : Thread nD τ) arg4 fullShare xV
        ∗ (∃ d, owns (c : Thread nD τ) arg5 fullShare d)
        ∗ (iprop(owns (c : Thread nD τ) arg2 fullShare xU ∗ owns (c : Thread nD τ) arg3 fullShare xS ∗ owns (c : Thread nD τ) arg4 fullShare xV
            ∗ owns (c : Thread nD τ) arg5 fullShare (prodBlock xU xS xV)) -∗ K ⟨⟩))
      ⊢ wp frame (wpE (defs₀ (F := F)) Variants.none c none) E (cc0__low_rank_matmul_kernel i arg2 harg2 arg3 harg3 arg4 harg4 arg5 harg5) K := by
  simp only [cc0__low_rank_matmul_kernel_eq_skeleton]; unfold cc0__low_rank_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover _)

/-- The proof data of the call on core `c`: the arrays as the call finds them; after the body at point `t` each input's
    buffer at its block and the product's at `prodBlock` of the blocks; the invariant the scoped buffers no operand is
    staged in and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => prodBlock (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) :
    (dat V c).after 3 t = prodBlock (blk V c 0 t) (blk V c 1 t) (blk V c 2 t) := by dsimp only [dat]

theorem before0 (c : Dev nD) (t : Fin cfg0.N) (d) : (dat V c).before 0 t d = blk V c 0 t :=
  held0 V (dat V c) (dat_A V c 0) (after0 V c) t d
theorem before1 (c : Dev nD) (t : Fin cfg0.N) (d) : (dat V c).before 1 t d = blk V c 1 t :=
  held1 V (dat V c) (dat_A V c 1) (after1 V c) t d
theorem before2 (c : Dev nD) (t : Fin cfg0.N) (d) : (dat V c).before 2 t d = blk V c 2 t :=
  held2 V (dat V c) (dat_A V c 2) (after2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation on the body, at every point of the grid. -/
theorem body_obligation (c : Dev nD) : BodyObligation (dat (F := F) V c) (defs₀ (F := F)) Variants.none () Set.univ := fun t => by
  rw [bigSep_W0, bigSep_W0]
  exact body_at V c t

end Cert.Kernel.Reconstruct

end
-- ==== Proof.AccumulateBits.lean ====
/-
  The second pallas_call, a grid of 4 × 4 points (j, k): the point reads the k-th 512 × 1024 block of columns of the
  left matrix and the (j, k) block of the right matrix; a scratch buffer carries a running 512 × 1024 sum across the
  four points of one j. At k = 0 the body first clears the scratch; at every point it adds to the scratch the product of
  the left block with the transposed right block; at k = 3 it copies the scratch into the output's staging buffer, which
  the pipeline writes back as block j of the result. At the other points the output's buffer is not touched and not
  written back. So the body runs in three ways — first (k = 0), middle (k = 1, 2), last (k = 3) — and what it leaves is
  found by running each.
-/
import proofs.«176107_j24721831756588_1_alg».proof.Proof.Gen.Kernel.Launch
import proofs.«176107_j24721831756588_1_alg».proof.Proof.Gen.Kernel.Skeleton
import proofs.«176107_j24721831756588_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Accumulate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the call is entered: a parameter of everything below.
variable (V : (c : Dev nD) → (b : Ref sig .tc) → Buf (Elt F) ((c : Thread nD τ).loc b))

/-- The block of operand `w` that the point `t` works on, read off the operand's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's staging buffer holds its block at every point (both inputs are fetched at every point). -/
theorem held0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid -/

/-- "k = 0", as the body computes it from the grid coordinates. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)
/-- "k = 3", as the body computes it. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The inputs are never idle; the output is idle, and not written back, exactly where k ≠ 3. -/
theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬isLast (grid1.coords t) → cfg1.idle 2 (grid1.coords t) = true := by decide +kernel
theorem noFlush2 : ∀ t : Fin cfg1.N, ¬isLast (grid1.coords t) → (cfg1.win 2).flush t = false := by decide +kernel
theorem live2 : ∀ t : Fin cfg1.N, isLast (grid1.coords t) → cfg1.idle 2 (grid1.coords t) = false := by decide +kernel

/-! ## The staging buffers and the scratch -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
/-- The scratch buffer carrying the running sum. -/
abbrev scr : Memref sig .tc .vmem S512x1024 .f32 := Memref.whole cc1_scratch0
abbrev scrV : View sig .tc .vmem S512x1024 .f32 := scr.view
abbrev outV : View sig .tc .vmem S512x1024 .f32 := (Memref.whole cc1_stg2_0 : Memref sig .tc .vmem S512x1024 .f32).view

/-! ## The body run in each of its three ways -/

set_option maxHeartbeats 1000000 in
/-- FIRST (k = 0): the output's buffer handed back untouched; the scratch, found at anything, ends with the pieces the
    run stores into it (the clearing store, then the sum). -/
noncomputable def runFirst (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : isFirst i) (hc1 : ¬isLast i)
    (x0 : Vec F S512x1024 .f32) (x1 : Vec F S1024x1024 .f32) :
    Σ' (L2 : List (View.Piece (Elt F) S512x1024 .f32)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨[], ?_, fun xi E K => ?run⟩
  case run =>
    simp only [cc1__final_matmul_kernel_eq_skeleton]; unfold cc1__final_matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE (k = 1, 2): the output's buffer handed back untouched; the scratch, found at `xs`, ends with the sum stored. -/
noncomputable def runMiddle (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : ¬isFirst i) (hc1 : ¬isLast i)
    (x0 : Vec F S512x1024 .f32) (x1 : Vec F S1024x1024 .f32) (xs : Vec F S512x1024 .f32) :
    Σ' (L2 : List (View.Piece (Elt F) S512x1024 .f32)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨[], ?_, fun xi E K => ?run⟩
  case run =>
    simp only [cc1__final_matmul_kernel_eq_skeleton]; unfold cc1__final_matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST (k = 3): the scratch, found at `xs`, ends with the sum stored; the output's buffer, found at anything, ends with
    the copy of the scratch stored. -/
noncomputable def runLast (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : ¬isFirst i) (hc1 : isLast i)
    (x0 : Vec F S512x1024 .f32) (x1 : Vec F S1024x1024 .f32) (xs : Vec F S512x1024 .f32) :
    Σ' (L2 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨?_, ?_, fun E K => ?run⟩
  case run =>
    simp only [cc1__final_matmul_kernel_eq_skeleton]; unfold cc1__final_matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Accumulate

end
-- ==== Proof.CarryBits.lean ====
/-
  What the second pallas_call's scratch buffer carries from point to point, and the proof data built on it.
  After point t the scratch holds the sum of the products of the blocks k' = 0 … k of the current j (t = 4 j + k): the
  first point of a j starts it from a cleared buffer, every later one adds to what the point before left. The output's
  staging buffer is stored only at k = 3, with a copy of the scratch. The region invariant is the scoped buffers of the
  first call (untouched here), the generator register, and the scratch at what the point before left (at anything before
  the first point).
-/
import proofs.«176107_j24721831756588_1_alg».proof.Proof.Gen.Kernel.Launch
import proofs.«176107_j24721831756588_1_alg».proof.Proof.Gen.Kernel.Skeleton
import proofs.«176107_j24721831756588_1_alg».proof.Proof.Gen.Kernel.Points
import proofs.«176107_j24721831756588_1_alg».proof.Proof.AccumulateBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Accumulate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way of running the body leaves -/

section Pieces
variable (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole)
    (x0 : Vec F S512x1024 .f32) (x1 : Vec F S1024x1024 .f32) (xs : Vec F S512x1024 .f32)

/-- The stores of the first way of running cover the scratch. -/
theorem coverFirst (hc0 : isFirst i) (hc1 : ¬isLast i) (y : S512x1024.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S512x1024.size (by sl_kernel_rfl) y
/-- What the first way leaves in the scratch. -/
def sumFirst (hc0 : isFirst i) (hc1 : ¬isLast i) : Vec F S512x1024 .f32 :=
  scrV.read (Elt F) (scrV.writes (Elt F) scrV.junk (runFirst c i arg2 harg2 arg3 harg3 arg4 harg4 arg5 harg5 hc0 hc1 x0 x1).2.1)

theorem coverMiddle (hc0 : ¬isFirst i) (hc1 : ¬isLast i) (y : S512x1024.Idx) :
    ∃ pc ∈ (runMiddle c i arg2 harg2 arg3 harg3 arg4 harg4 arg5 harg5 hc0 hc1 x0 x1 xs).2.1, y ∈ pc.1.set :=
  View.cover_of_tiledL (runMiddle c i arg2 harg2 arg3 harg3 arg4 harg4 arg5 harg5 hc0 hc1 x0 x1 xs).2.1 S512x1024.size (by sl_kernel_rfl) y
/-- What a middle point leaves in the scratch, having found `xs` there. -/
def sumMiddle (hc0 : ¬isFirst i) (hc1 : ¬isLast i) : Vec F S512x1024 .f32 :=
  scrV.read (Elt F) (scrV.writes (Elt F) scrV.junk (runMiddle c i arg2 harg2 arg3 harg3 arg4 harg4 arg5 harg5 hc0 hc1 x0 x1 xs).2.1)

theorem coverLast (hc0 : ¬isFirst i) (hc1 : isLast i) (y : S512x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S512x1024.size (by sl_kernel_rfl) y
/-- What the last point of a j leaves in the scratch, -/
def sumLast (hc0 : ¬isFirst i) (hc1 : isLast i) : Vec F S512x1024 .f32 :=
  scrV.read (Elt F) (scrV.writes (Elt F) scrV.junk (runLast c i arg2 harg2 arg3 harg3 arg4 harg4 arg5 harg5 hc0 hc1 x0 x1 xs).2.1)
theorem coverOut (hc0 : ¬isFirst i) (hc1 : isLast i) (y : S512x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S512x1024.size (by sl_kernel_rfl) y
/-- and in the output's staging buffer. -/
def outLast (hc0 : ¬isFirst i) (hc1 : isLast i) : Vec F S512x1024 .f32 :=
  outV.read (Elt F) (outV.writes (Elt F) outV.junk (runLast c i arg2 harg2 arg3 harg3 arg4 harg4 arg5 harg5 hc0 hc1 x0 x1 xs).1)

end Pieces

/-! ## The scratch and the output's buffer after each point -/

/-- After the point at position `n`: (the output's staging buffer, the scratch). The output's component means something
    only where k = 3 (elsewhere the buffer is idle and nothing consults it). -/
def leftAt (c : Dev nD) : (n : ℕ) → n < cfg1.N → Vec F S512x1024 .f32 × Vec F S512x1024 .f32
  | 0, hn =>
    (outV.read (Elt F) outV.junk,
     sumFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) scr (Memref.isWhole_whole _)
       (blk V c 0 ⟨0, hn⟩) (blk V c 1 ⟨0, hn⟩) ((isFirst_iff ⟨0, hn⟩).mpr (Nat.zero_mod _)) (fun h => by have := (isLast_iff ⟨0, hn⟩).mp h; (try dsimp only at this); omega))
  | n + 1, hn =>
    if h0 : (n + 1) % 4 = 0 then
      (outV.read (Elt F) outV.junk,
       sumFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) ((isFirst_iff ⟨n + 1, hn⟩).mpr h0) (fun h => by have := (isLast_iff ⟨n + 1, hn⟩).mp h; (try dsimp only at this); omega))
    else if h1 : (n + 1) % 4 = 3 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) ((isLast_iff ⟨n + 1, hn⟩).mpr h1),
       sumLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) ((isLast_iff ⟨n + 1, hn⟩).mpr h1))
    else
      (outV.read (Elt F) outV.junk,
       sumMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) (fun h => h1 ((isLast_iff ⟨n + 1, hn⟩).mp h)))

/-- What the point before `t` left in the scratch (`t` not the first point). -/
abbrev prev (c : Dev nD) (t : Fin cfg1.N) : Vec F S512x1024 .f32 :=
  (leftAt V c (t.val - 1) (Nat.lt_of_le_of_lt (Nat.sub_le _ _) t.isLt)).2

theorem leftAt_first (c : Dev nD) (t : Fin cfg1.N) (h0 : t.val % 4 = 0) :
    leftAt V c t.val t.isLt = (outV.read (Elt F) outV.junk, sumFirst c (grid1.coords t) (ms0 t) (hs0 t) (ms1 t) (hs1 t) (ms2 t) (hs2 t) scr (Memref.isWhole_whole _)
      (blk V c 0 t) (blk V c 1 t) ((isFirst_iff t).mpr h0) (fun h => by have := (isLast_iff t).mp h; omega)) := by
  obtain ⟨n, hn⟩ := t
  cases n with
  | zero => exact rfl
  | succ n => exact (dif_pos h0).trans rfl

theorem leftAt_middle (c : Dev nD) (t : Fin cfg1.N) (h0 : ¬t.val % 4 = 0) (h1 : ¬t.val % 4 = 3) :
    leftAt V c t.val t.isLt = (outV.read (Elt F) outV.junk, sumMiddle c (grid1.coords t) (ms0 t) (hs0 t) (ms1 t) (hs1 t) (ms2 t) (hs2 t) scr (Memref.isWhole_whole _)
      (blk V c 0 t) (blk V c 1 t) (prev V c t) (fun h => h0 ((isFirst_iff t).mp h)) (fun h => h1 ((isLast_iff t).mp h))) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg1.N) (h0 : ¬t.val % 4 = 0) (h1 : t.val % 4 = 3) :
    leftAt V c t.val t.isLt = (outLast c (grid1.coords t) (ms0 t) (hs0 t) (ms1 t) (hs1 t) (ms2 t) (hs2 t) scr (Memref.isWhole_whole _)
      (blk V c 0 t) (blk V c 1 t) (prev V c t) (fun h => h0 ((isFirst_iff t).mp h)) ((isLast_iff t).mpr h1),
     sumLast c (grid1.coords t) (ms0 t) (hs0 t) (ms1 t) (hs1 t) (ms2 t) (hs2 t) scr (Memref.isWhole_whole _)
      (blk V c 0 t) (blk V c 1 t) (prev V c t) (fun h => h0 ((isFirst_iff t).mp h)) ((isLast_iff t).mpr h1)) := by
  obtain ⟨n, hn⟩ := t
  cases n with
  | zero => exact (by exfalso; (try dsimp only at h0); exact absurd (Nat.zero_mod _) h0)
  | succ n => exact (dif_neg h0).trans ((dif_pos h1).trans rfl)

end Cert.Kernel.Accumulate

namespace Cert.Kernel.Accumulate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant -/

/-- The scoped buffers that are no staging buffer of this call — the first call's seven staging buffers, each at some
    contents — beside an assertion `S` about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The invariant of a call that keeps nothing between points — every scoped buffer no operand is staged in at some
    contents, and the generator register —, with the scratch named as a memref owned at some contents. -/
theorem PhiA_eq (c : Dev nD) :
    (Pipeline.ΦA spec1 c : sProp 𝕄) = iprop(restWith c iprop(∃ d, owns (c : Thread nD τ) scr fullShare d) ∗ (∃ r, prngReg c r)) := by
  unfold Pipeline.ΦA restWith; rw [scopedRest1_eq]; simp only [scr, owns_whole]; try rfl

/-- The invariant before position `n`: before the first point the class's (the scratch at anything); afterwards the
    scratch at what the point before left in it. -/
def inv (c : Dev nD) : (n : ℕ) → n ≤ cfg1.N → sProp 𝕄
  | 0, _ => Pipeline.ΦA spec1 c
  | n + 1, hn => iprop(restWith c (owns (c : Thread nD τ) scr fullShare (leftAt V c n hn).2) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(restWith c (owns (c : Thread nD τ) scr fullShare (leftAt V c n hn).2) ∗ (∃ r, prngReg c r)) := rfl
theorem inv_pos (c : Dev nD) (n : ℕ) (h : n ≤ cfg1.N) (hz : n ≠ 0) :
    inv V c n h = iprop(restWith c (owns (c : Thread nD τ) scr fullShare (leftAt V c (n - 1) (by omega)).2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (leftAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = (leftAt V c t.val t.isLt).1 := by dsimp only [dat]
theorem before0 (c : Dev nD) (t : Fin cfg1.N) (d) : (dat V c).before 0 t d = blk V c 0 t :=
  held0 V (dat V c) (dat_A V c 0) (after0 V c) t d
theorem before1 (c : Dev nD) (t : Fin cfg1.N) (d) : (dat V c).before 1 t d = blk V c 1 t :=
  held1 V (dat V c) (dat_A V c 1) (after1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the position modulo 4 says which way it runs; the invariant hands it the scratch at what the
    point before left (at anything at the very first point) and takes it back at this point's contents. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg1.N = 16 from N_1)
  rw [show (dat V c).leavesExact 0 t = owns (c : Thread nD τ) (ms0 t) fullShare ((dat V c).after 0 t) from by
      unfold Dat.leavesExact; rw [live0 t], after0]
  rw [show (dat V c).leavesExact 1 t = owns (c : Thread nD τ) (ms1 t) fullShare ((dat V c).after 1 t) from by
      unfold Dat.leavesExact; rw [live1 t], after1]
  by_cases h0 : t.val % 4 = 0
  · have hf : isFirst (grid1.coords t) := (isFirst_iff t).mpr h0
    have hl : ¬isLast (grid1.coords t) := fun h => by have := (isLast_iff t).mp h; omega
    rw [Dat.leavesExact_idle (dat V c) 2 t (idle2 t hl) (noFlush2 t hl)]
    rw [leftAt_first V c t h0]
    unfold sumFirst; (try dsimp only)
    by_cases hz : t.val = 0
    · rw [inv_castSucc V c t, inv_zero V c _ _ hz, PhiA_eq]; unfold restWith
      iintro ⟨⟨⟨A1, A2, A3, A4, A5, A6, A7, HS⟩, Hg⟩, Ho, ⟨%d0, H0⟩, ⟨%d1, H1⟩, ⟨%d2, H2⟩⟩
      iapply ((runFirst c (grid1.coords t) _ _ _ _ _ _ _ _ hf hl (blk V c 0 t) (blk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runFirst c (grid1.coords t) _ _ _ _ _ _ _ _ hf hl (blk V c 0 t) (blk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hf : ¬isFirst (grid1.coords t) := fun h => h0 ((isFirst_iff t).mp h)
    have hz : t.val ≠ 0 := fun h => h0 (by rw [h])
    by_cases h1 : t.val % 4 = 3
    · have hl : isLast (grid1.coords t) := (isLast_iff t).mpr h1
      rw [show (dat V c).leavesExact 2 t = owns (c : Thread nD τ) (ms2 t) fullShare ((dat V c).after 2 t) from by
        unfold Dat.leavesExact; rw [live2 t hl], after2]
      rw [leftAt_last V c t h0 h1]
      unfold outLast sumLast; (try dsimp only)
      rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runLast c (grid1.coords t) _ _ _ _ _ _ _ _ hf hl (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c _ _ _ _ _ _ _ _ _ _ _ _ _ _)
    · have hl : ¬isLast (grid1.coords t) := fun h => h1 ((isLast_iff t).mp h)
      rw [Dat.leavesExact_idle (dat V c) 2 t (idle2 t hl) (noFlush2 t hl)]
      rw [leftAt_middle V c t h0 h1]
      unfold sumMiddle; (try dsimp only)
      rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runMiddle c (grid1.coords t) _ _ _ _ _ _ _ _ hf hl (blk V c 0 t) (blk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

/-- The obligation on the body, at every point of the grid. -/
theorem body_obligation (c : Dev nD) : BodyObligation (dat (F := F) V c) (defs₀ (F := F)) Variants.none () Set.univ := fun t => by
  rw [bigSep_W1, bigSep_W1]
  exact body_at V c t

/-- Before the first point the invariant is the class's; -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- after the last it gives the class's back, the scratch's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 16 := N_1; omega), PhiA_eq]
  unfold restWith
  iintro ⟨⟨A1, A2, A3, A4, A5, A6, A7, HS⟩, Hg⟩
  isplitl [A1 A2 A3 A4 A5 A6 A7 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  iexact Hg

end Cert.Kernel.Accumulate

end
-- ==== Proof.WholeBits.lean ====
/-
  The whole program as a run: three stretches of host operations around the two pallas_calls. Between two items a core
  holds every unscoped buffer at known contents — the launch memory, then what each host stretch computes, then what a
  call's write-backs leave in its result array — beside the generator register and the fact that it owes no other core
  anything. Each call is entered with its operands' arrays split out of those buffers and left with
  them put back, the result array at the fold of the blocks written back. The run ends with every unscoped buffer at the
  last of these contents, from which both the frame (no argument array is ever written) and the result are read.
-/
import proofs.«176107_j24721831756588_1_alg».proof.Proof.Gen.Kernel.Launch
import proofs.«176107_j24721831756588_1_alg».proof.Proof.Gen.Kernel.Skeleton
import proofs.«176107_j24721831756588_1_alg».proof.Proof.Gen.Kernel.Points
import proofs.«176107_j24721831756588_1_alg».proof.Proof.Gen.Kernel.Regions
import proofs.«176107_j24721831756588_1_alg».proof.Proof.ReconstructBits
import proofs.«176107_j24721831756588_1_alg».proof.Proof.CarryBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- When the first call is entered (after the first host stretch), read at the TensorCore's references. -/
abbrev E1 (c : Dev nD) (b : Ref sig .tc) : Buf (Elt F) ((c : Thread nD τ).loc b) := Gen.V1 m c b
/-- When the first call is left: its arrays at what the pipeline leaves, the rest as entered. -/
def W2 (c : Dev nD) : Valuation τ sig (Elt F) :=
  Pipeline.withArrays spec0 c (Gen.V1 m c) fun w => (Reconstruct.dat (E1 m) c).arrAt w cfg0.N
/-- After the second host stretch, when the second call is entered. -/
abbrev W3 (c : Dev nD) : Valuation τ sig (Elt F) :=
  StableHlo.after hostOps1 (Function.update (Gen.V1 m c) main_v17 (W2 m c main_v17))
abbrev E3 (c : Dev nD) (b : Ref sig .tc) : Buf (Elt F) ((c : Thread nD τ).loc b) := W3 m c b
/-- When the second call is left. -/
def W4 (c : Dev nD) : Valuation τ sig (Elt F) :=
  Pipeline.withArrays spec1 c (W3 m c) fun w => (Accumulate.dat (E3 m) c).arrAt w cfg1.N

/-- What the two calls leave in their result arrays, in the form the generated thread states take it. -/
def outs : Gen.Outs (F := F) := fun j r c =>
  if j = 2 then W2 m c (Proc.devRef .tc r) else W4 m c (Proc.devRef .tc r)

theorem outs_two (c : Dev nD) : outs m 2 main_v17 c = W2 m c main_v17 := rfl
theorem outs_four (c : Dev nD) : outs m 4 main_v28 c = W4 m c main_v28 := rfl
theorem V3_eq (c : Dev nD) : Gen.V3 m (outs m) c = W3 m c := rfl

theorem W2_arr (c : Dev nD) (w : Fin cfg0.W) :
    W2 m c (Proc.devRef .tc (Pipeline.arrRef spec0 w)) = (Reconstruct.dat (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (Accumulate.dat (E3 m) c).arrAt w cfg1.N := by
  unfold W4; exact Pipeline.withArrays_arr spec1 launch1.win.arr_inj c _ _ w

/-- The generated thread states after each call hold, at the call's result array, what the call left there. -/
theorem V2_out (c : Dev nD) : Gen.V2 m (outs m) c main_v17 = W2 m c main_v17 := by
  simp only [Gen.V2, Function.update_self]; rfl
theorem V4_out (c : Dev nD) : Gen.V4 m (outs m) c main_v28 = W4 m c main_v28 := by
  simp only [Gen.V4, Function.update_self]; rfl

/-! ## The proof data of both pipelines and what rides beside the buffers -/

def pdats : (p : Fin 2) → (c : Dev nD) → Dat τ (Elt F) Unit ℕ (UR sig nD τ) ℕ (Pipeline.pin (pcfgs (F := F)) Gen.adm p) c
  | ⟨0, _⟩ => fun c => Reconstruct.dat (E1 m) c
  | ⟨1, _⟩ => fun c => Accumulate.dat (E3 m) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The two calls as segments -/

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reconstruct.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N)
      (fun w => by
        match w with
        | ⟨0, _⟩ => exact (((Reconstruct.dat (E1 m) c).arrAt_in 0 rfl _).trans (Reconstruct.dat_A (E1 m) c 0)).trans (Gen.V2_of m (outs m) c main_v7 (by decide)).symm
        | ⟨1, _⟩ => exact (((Reconstruct.dat (E1 m) c).arrAt_in 1 rfl _).trans (Reconstruct.dat_A (E1 m) c 1)).trans (Gen.V2_of m (outs m) c main_v16 (by decide)).symm
        | ⟨2, _⟩ => exact (((Reconstruct.dat (E1 m) c).arrAt_in 2 rfl _).trans (Reconstruct.dat_A (E1 m) c 2)).trans (Gen.V2_of m (outs m) c main_v15 (by decide)).symm
        | ⟨3, _⟩ => exact (W2_arr m c 3).symm.trans (V2_out m c).symm)
      (fun b hb => Gen.V2_of m (outs m) c b (by
        intro hmem
        have : b = main_v17 := by simpa using hmem
        exact hb (Finset.mem_image.mpr ⟨3, Finset.mem_univ _, this.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Accumulate.body_obligation (E3 m) c).loose
  hwaits := Pipeline.hwaits_of_owed_zero _ _ _ _ L lv 1 fun _ _ => rfl
  pre c := iprop(StableHlo.held (c : Thread nD τ) (Pipeline.ucRefs τ sig) (W3 m c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Accumulate.inv_in (E3 m) c)
    unfold Pipeline.ΦA
    iintro ⟨Hp, -, Hr⟩
    isplitl [Hr]; · iexact Hr
    iexact Hp
  hout c := by
    rw [Pipeline.ownSems0_none]
    refine BIBase.Entails.trans (Accumulate.inv_out (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N)
      (fun w => by
        match w with
        | ⟨0, _⟩ => exact (((Accumulate.dat (E3 m) c).arrAt_in 0 rfl _).trans (Accumulate.dat_A (E3 m) c 0)).trans (Gen.V4_of m (outs m) c main_v27 (by decide)).symm
        | ⟨1, _⟩ => exact (((Accumulate.dat (E3 m) c).arrAt_in 1 rfl _).trans (Accumulate.dat_A (E3 m) c 1)).trans (Gen.V4_of m (outs m) c main_v26 (by decide)).symm
        | ⟨2, _⟩ => exact (W4_arr m c 2).symm.trans (V4_out m c).symm)
      (fun b hb => Gen.V4_of m (outs m) c b (by
        intro hmem
        have : b = main_v28 := by simpa using hmem
        exact hb (Finset.mem_image.mpr ⟨2, Finset.mem_univ _, this.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory `m` with zero counters terminates, nothing faulting, and in
    the final memory every unscoped buffer of a core holds the last of the contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨Hh, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- The frame: no argument array is written by a host stretch or changed by a call. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c)⟩) (run m ρ)

end Cert.Kernel.Whole

end
-- ==== Proof.ReconstructIdeal.lean ====
/-
  The first pallas_call, a grid of 4 × 4 points: at the point (i, j) the body reads a 1024 × 256 block of the left
  factor (block row i), the whole 1 × 256 row of scales, and a 256 × 1024 block of the right factor (block column j),
  and stores into the (i, j) block of the product the matrix product of the scaled left block with the right block,
  accumulated from zero. Nothing is kept between points and every point stores its whole output block, so what a
  point leaves is a function of the three input blocks alone.
-/
import proofs.«176107_j24721831756588_1_alg».proof.Proof.Gen.KernelIdeal.Launch
import proofs.«176107_j24721831756588_1_alg».proof.Proof.Gen.KernelIdeal.Skeleton
import proofs.«176107_j24721831756588_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reconstruct

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the call is entered: a parameter of everything below.
variable (V : (c : Dev nD) → (b : Ref sig .tc) → Buf (Elt F) ((c : Thread nD τ).loc b))

/-- The block of operand `w` that the point `t` works on, read off the operand's array as the call finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's staging buffer holds its block at every point, whether the pipeline fetched it there or the
    block index did not move since the last fetch: the body never stores into an input. -/
theorem held0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem held2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rU : Rect S1024x256 := Rect.unit (s := S1024x256) ![0, 0] S1024x256.size inb_S1024x256_S1024x256_0_0
abbrev rS : Rect S1x256 := Rect.unit (s := S1x256) ![0, 0] S1x256.size inb_S1x256_S1x256_0_0
abbrev rV : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What a point leaves in the product's staging buffer: its one store, of the body's arithmetic on the three blocks. -/
def prodBlock (xU : Vec F S1024x256 .f32) (xS : Vec F S1x256 .f32) (xV : Vec F S256x1024 .f32) : Vec F S1024x1024 .f32 :=
  View.canon [⟨rW, k0_pay1 (View.ld xU rU) (View.ld xS rS) (View.ld xV rV)⟩]

/-- The one store covers the whole buffer. -/
theorem prodCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

set_option maxHeartbeats 1000000 in
/-- The body's triple: on whole staging buffers, the inputs' at `xU`, `xS`, `xV` and the output's at anything, it
    runs to its end with the inputs untouched and the output's buffer at `prodBlock` of them. -/
theorem body_triple (c : Dev nD) (E : Set ℕ) (i : grid0.Coords) (arg2 : Memref sig .tc .vmem S1024x256 .f32) (harg2 : arg2.IsWhole)
    (arg3 : Memref sig .tc .vmem S1x256 .f32) (harg3 : arg3.IsWhole) (arg4 : Memref sig .tc .vmem S256x1024 .f32) (harg4 : arg4.IsWhole)
    (arg5 : Memref sig .tc .vmem S1024x1024 .f32) (harg5 : arg5.IsWhole)
    (xU : Vec F S1024x256 .f32) (xS : Vec F S1x256 .f32) (xV : Vec F S256x1024 .f32) (K : PUnit → sProp 𝕄) :
    iprop(owns (c : Thread nD τ) arg2 fullShare xU ∗ owns (c : Thread nD τ) arg3 fullShare xS ∗ owns (c : Thread nD τ) arg4 fullShare xV
        ∗ (∃ d, owns (c : Thread nD τ) arg5 fullShare d)
        ∗ (iprop(owns (c : Thread nD τ) arg2 fullShare xU ∗ owns (c : Thread nD τ) arg3 fullShare xS ∗ owns (c : Thread nD τ) arg4 fullShare xV
            ∗ owns (c : Thread nD τ) arg5 fullShare (prodBlock xU xS xV)) -∗ K ⟨⟩))
      ⊢ wp frame (wpE (defs₀ (F := F)) Variants.none c none) E (cc0__low_rank_matmul_kernel i arg2 harg2 arg3 harg3 arg4 harg4 arg5 harg5) K := by
  simp only [cc0__low_rank_matmul_kernel_eq_skeleton]; unfold cc0__low_rank_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prodCover _)

/-- The proof data of the call on core `c`: the arrays as the call finds them; after the body at point `t` each input's
    buffer at its block and the product's at `prodBlock` of the blocks; the invariant the scoped buffers no operand is
    staged in and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => prodBlock (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) :
    (dat V c).after 3 t = prodBlock (blk V c 0 t) (blk V c 1 t) (blk V c 2 t) := by dsimp only [dat]

theorem before0 (c : Dev nD) (t : Fin cfg0.N) (d) : (dat V c).before 0 t d = blk V c 0 t :=
  held0 V (dat V c) (dat_A V c 0) (after0 V c) t d
theorem before1 (c : Dev nD) (t : Fin cfg0.N) (d) : (dat V c).before 1 t d = blk V c 1 t :=
  held1 V (dat V c) (dat_A V c 1) (after1 V c) t d
theorem before2 (c : Dev nD) (t : Fin cfg0.N) (d) : (dat V c).before 2 t d = blk V c 2 t :=
  held2 V (dat V c) (dat_A V c 2) (after2 V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation on the body, at every point of the grid. -/
theorem body_obligation (c : Dev nD) : BodyObligation (dat (F := F) V c) (defs₀ (F := F)) Variants.none () Set.univ := fun t => by
  rw [bigSep_W0, bigSep_W0]
  exact body_at V c t

end Cert.KernelIdeal.Reconstruct

end
-- ==== Proof.AccumulateIdeal.lean ====
/-
  The second pallas_call, a grid of 4 × 4 points (j, k): the point reads the k-th 512 × 1024 block of columns of the
  left matrix and the (j, k) block of the right matrix; a scratch buffer carries a running 512 × 1024 sum across the
  four points of one j. At k = 0 the body first clears the scratch; at every point it adds to the scratch the product of
  the left block with the transposed right block; at k = 3 it copies the scratch into the output's staging buffer, which
  the pipeline writes back as block j of the result. At the other points the output's buffer is not touched and not
  written back. So the body runs in three ways — first (k = 0), middle (k = 1, 2), last (k = 3) — and what it leaves is
  found by running each.
-/
import proofs.«176107_j24721831756588_1_alg».proof.Proof.Gen.KernelIdeal.Launch
import proofs.«176107_j24721831756588_1_alg».proof.Proof.Gen.KernelIdeal.Skeleton
import proofs.«176107_j24721831756588_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Accumulate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the call is entered: a parameter of everything below.
variable (V : (c : Dev nD) → (b : Ref sig .tc) → Buf (Elt F) ((c : Thread nD τ).loc b))

/-- The block of operand `w` that the point `t` works on, read off the operand's array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's staging buffer holds its block at every point (both inputs are fetched at every point). -/
theorem held0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem held1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, over the grid -/

/-- "k = 0", as the body computes it from the grid coordinates. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)
/-- "k = 3", as the body computes it. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-- The inputs are never idle; the output is idle, and not written back, exactly where k ≠ 3. -/
theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬isLast (grid1.coords t) → cfg1.idle 2 (grid1.coords t) = true := by decide +kernel
theorem noFlush2 : ∀ t : Fin cfg1.N, ¬isLast (grid1.coords t) → (cfg1.win 2).flush t = false := by decide +kernel
theorem live2 : ∀ t : Fin cfg1.N, isLast (grid1.coords t) → cfg1.idle 2 (grid1.coords t) = false := by decide +kernel

/-! ## The staging buffers and the scratch -/

abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
/-- The scratch buffer carrying the running sum. -/
abbrev scr : Memref sig .tc .vmem S512x1024 .f32 := Memref.whole cc1_scratch0
abbrev scrV : View sig .tc .vmem S512x1024 .f32 := scr.view
abbrev outV : View sig .tc .vmem S512x1024 .f32 := (Memref.whole cc1_stg2_0 : Memref sig .tc .vmem S512x1024 .f32).view

/-! ## The body run in each of its three ways -/

set_option maxHeartbeats 1000000 in
/-- FIRST (k = 0): the output's buffer handed back untouched; the scratch, found at anything, ends with the pieces the
    run stores into it (the clearing store, then the sum). -/
noncomputable def runFirst (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : isFirst i) (hc1 : ¬isLast i)
    (x0 : Vec F S512x1024 .f32) (x1 : Vec F S1024x1024 .f32) :
    Σ' (L2 : List (View.Piece (Elt F) S512x1024 .f32)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨[], ?_, fun xi E K => ?run⟩
  case run =>
    simp only [cc1__final_matmul_kernel_eq_skeleton]; unfold cc1__final_matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- MIDDLE (k = 1, 2): the output's buffer handed back untouched; the scratch, found at `xs`, ends with the sum stored. -/
noncomputable def runMiddle (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : ¬isFirst i) (hc1 : ¬isLast i)
    (x0 : Vec F S512x1024 .f32) (x1 : Vec F S1024x1024 .f32) (xs : Vec F S512x1024 .f32) :
    Σ' (L2 : List (View.Piece (Elt F) S512x1024 .f32)), { LS : List (View.Piece (Elt F) S512x1024 .f32) //
      ∀ (xi : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨[], ?_, fun xi E K => ?run⟩
  case run =>
    simp only [cc1__final_matmul_kernel_eq_skeleton]; unfold cc1__final_matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- LAST (k = 3): the scratch, found at `xs`, ends with the sum stored; the output's buffer, found at anything, ends with
    the copy of the scratch stored. -/
noncomputable def runLast (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole) (hc0 : ¬isFirst i) (hc1 : isLast i)
    (x0 : Vec F S512x1024 .f32) (x1 : Vec F S1024x1024 .f32) (xs : Vec F S512x1024 .f32) :
    Σ' (L2 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__final_matmul_kernel i arg2 harg2 arg3 harg3 arg4 harg4 arg5 harg5) K } := by
  refine ⟨?_, ?_, fun E K => ?run⟩
  case run =>
    simp only [cc1__final_matmul_kernel_eq_skeleton]; unfold cc1__final_matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Accumulate

end
-- ==== Proof.CarryIdeal.lean ====
/-
  What the second pallas_call's scratch buffer carries from point to point, and the proof data built on it.
  After point t the scratch holds the sum of the products of the blocks k' = 0 … k of the current j (t = 4 j + k): the
  first point of a j starts it from a cleared buffer, every later one adds to what the point before left. The output's
  staging buffer is stored only at k = 3, with a copy of the scratch. The region invariant is the scoped buffers of the
  first call (untouched here), the generator register, and the scratch at what the point before left (at anything before
  the first point).
-/
import proofs.«176107_j24721831756588_1_alg».proof.Proof.Gen.KernelIdeal.Launch
import proofs.«176107_j24721831756588_1_alg».proof.Proof.Gen.KernelIdeal.Skeleton
import proofs.«176107_j24721831756588_1_alg».proof.Proof.Gen.KernelIdeal.Points
import proofs.«176107_j24721831756588_1_alg».proof.Proof.AccumulateIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Accumulate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way of running the body leaves -/

section Pieces
variable (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole)
    (x0 : Vec F S512x1024 .f32) (x1 : Vec F S1024x1024 .f32) (xs : Vec F S512x1024 .f32)

/-- The stores of the first way of running cover the scratch. -/
theorem coverFirst (hc0 : isFirst i) (hc1 : ¬isLast i) (y : S512x1024.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S512x1024.size (by sl_kernel_rfl) y
/-- What the first way leaves in the scratch. -/
def sumFirst (hc0 : isFirst i) (hc1 : ¬isLast i) : Vec F S512x1024 .f32 :=
  scrV.read (Elt F) (scrV.writes (Elt F) scrV.junk (runFirst c i arg2 harg2 arg3 harg3 arg4 harg4 arg5 harg5 hc0 hc1 x0 x1).2.1)

theorem coverMiddle (hc0 : ¬isFirst i) (hc1 : ¬isLast i) (y : S512x1024.Idx) :
    ∃ pc ∈ (runMiddle c i arg2 harg2 arg3 harg3 arg4 harg4 arg5 harg5 hc0 hc1 x0 x1 xs).2.1, y ∈ pc.1.set :=
  View.cover_of_tiledL (runMiddle c i arg2 harg2 arg3 harg3 arg4 harg4 arg5 harg5 hc0 hc1 x0 x1 xs).2.1 S512x1024.size (by sl_kernel_rfl) y
/-- What a middle point leaves in the scratch, having found `xs` there. -/
def sumMiddle (hc0 : ¬isFirst i) (hc1 : ¬isLast i) : Vec F S512x1024 .f32 :=
  scrV.read (Elt F) (scrV.writes (Elt F) scrV.junk (runMiddle c i arg2 harg2 arg3 harg3 arg4 harg4 arg5 harg5 hc0 hc1 x0 x1 xs).2.1)

theorem coverLast (hc0 : ¬isFirst i) (hc1 : isLast i) (y : S512x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S512x1024.size (by sl_kernel_rfl) y
/-- What the last point of a j leaves in the scratch, -/
def sumLast (hc0 : ¬isFirst i) (hc1 : isLast i) : Vec F S512x1024 .f32 :=
  scrV.read (Elt F) (scrV.writes (Elt F) scrV.junk (runLast c i arg2 harg2 arg3 harg3 arg4 harg4 arg5 harg5 hc0 hc1 x0 x1 xs).2.1)
theorem coverOut (hc0 : ¬isFirst i) (hc1 : isLast i) (y : S512x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S512x1024.size (by sl_kernel_rfl) y
/-- and in the output's staging buffer. -/
def outLast (hc0 : ¬isFirst i) (hc1 : isLast i) : Vec F S512x1024 .f32 :=
  outV.read (Elt F) (outV.writes (Elt F) outV.junk (runLast c i arg2 harg2 arg3 harg3 arg4 harg4 arg5 harg5 hc0 hc1 x0 x1 xs).1)

end Pieces

/-! ## The scratch and the output's buffer after each point -/

/-- After the point at position `n`: (the output's staging buffer, the scratch). The output's component means something
    only where k = 3 (elsewhere the buffer is idle and nothing consults it). -/
def leftAt (c : Dev nD) : (n : ℕ) → n < cfg1.N → Vec F S512x1024 .f32 × Vec F S512x1024 .f32
  | 0, hn =>
    (outV.read (Elt F) outV.junk,
     sumFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) scr (Memref.isWhole_whole _)
       (blk V c 0 ⟨0, hn⟩) (blk V c 1 ⟨0, hn⟩) ((isFirst_iff ⟨0, hn⟩).mpr (Nat.zero_mod _)) (fun h => by have := (isLast_iff ⟨0, hn⟩).mp h; (try dsimp only at this); omega))
  | n + 1, hn =>
    if h0 : (n + 1) % 4 = 0 then
      (outV.read (Elt F) outV.junk,
       sumFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) ((isFirst_iff ⟨n + 1, hn⟩).mpr h0) (fun h => by have := (isLast_iff ⟨n + 1, hn⟩).mp h; (try dsimp only at this); omega))
    else if h1 : (n + 1) % 4 = 3 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) ((isLast_iff ⟨n + 1, hn⟩).mpr h1),
       sumLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) ((isLast_iff ⟨n + 1, hn⟩).mpr h1))
    else
      (outV.read (Elt F) outV.junk,
       sumMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scr (Memref.isWhole_whole _)
         (blk V c 0 ⟨n + 1, hn⟩) (blk V c 1 ⟨n + 1, hn⟩) (leftAt c n (Nat.lt_of_succ_lt hn)).2 (fun h => h0 ((isFirst_iff ⟨n + 1, hn⟩).mp h)) (fun h => h1 ((isLast_iff ⟨n + 1, hn⟩).mp h)))

/-- What the point before `t` left in the scratch (`t` not the first point). -/
abbrev prev (c : Dev nD) (t : Fin cfg1.N) : Vec F S512x1024 .f32 :=
  (leftAt V c (t.val - 1) (Nat.lt_of_le_of_lt (Nat.sub_le _ _) t.isLt)).2

theorem leftAt_first (c : Dev nD) (t : Fin cfg1.N) (h0 : t.val % 4 = 0) :
    leftAt V c t.val t.isLt = (outV.read (Elt F) outV.junk, sumFirst c (grid1.coords t) (ms0 t) (hs0 t) (ms1 t) (hs1 t) (ms2 t) (hs2 t) scr (Memref.isWhole_whole _)
      (blk V c 0 t) (blk V c 1 t) ((isFirst_iff t).mpr h0) (fun h => by have := (isLast_iff t).mp h; omega)) := by
  obtain ⟨n, hn⟩ := t
  cases n with
  | zero => exact rfl
  | succ n => exact (dif_pos h0).trans rfl

theorem leftAt_middle (c : Dev nD) (t : Fin cfg1.N) (h0 : ¬t.val % 4 = 0) (h1 : ¬t.val % 4 = 3) :
    leftAt V c t.val t.isLt = (outV.read (Elt F) outV.junk, sumMiddle c (grid1.coords t) (ms0 t) (hs0 t) (ms1 t) (hs1 t) (ms2 t) (hs2 t) scr (Memref.isWhole_whole _)
      (blk V c 0 t) (blk V c 1 t) (prev V c t) (fun h => h0 ((isFirst_iff t).mp h)) (fun h => h1 ((isLast_iff t).mp h))) := by
  obtain ⟨n, hn⟩ := t
  cases n with
  | zero => exact (by exfalso; (try dsimp only at h0); exact absurd (Nat.zero_mod _) h0)
  | succ n => exact (dif_neg h0).trans ((dif_neg h1).trans rfl)

theorem leftAt_last (c : Dev nD) (t : Fin cfg1.N) (h0 : ¬t.val % 4 = 0) (h1 : t.val % 4 = 3) :
    leftAt V c t.val t.isLt = (outLast c (grid1.coords t) (ms0 t) (hs0 t) (ms1 t) (hs1 t) (ms2 t) (hs2 t) scr (Memref.isWhole_whole _)
      (blk V c 0 t) (blk V c 1 t) (prev V c t) (fun h => h0 ((isFirst_iff t).mp h)) ((isLast_iff t).mpr h1),
     sumLast c (grid1.coords t) (ms0 t) (hs0 t) (ms1 t) (hs1 t) (ms2 t) (hs2 t) scr (Memref.isWhole_whole _)
      (blk V c 0 t) (blk V c 1 t) (prev V c t) (fun h => h0 ((isFirst_iff t).mp h)) ((isLast_iff t).mpr h1)) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Accumulate

namespace Cert.KernelIdeal.Accumulate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The region invariant -/

/-- The scoped buffers that are no staging buffer of this call — the first call's seven staging buffers, each at some
    contents — beside an assertion `S` about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The invariant of a call that keeps nothing between points — every scoped buffer no operand is staged in at some
    contents, and the generator register —, with the scratch named as a memref owned at some contents. -/
theorem PhiA_eq (c : Dev nD) :
    (Pipeline.ΦA spec1 c : sProp 𝕄) = iprop(restWith c iprop(∃ d, owns (c : Thread nD τ) scr fullShare d) ∗ (∃ r, prngReg c r)) := by
  unfold Pipeline.ΦA restWith; rw [scopedRest1_eq]; simp only [scr, owns_whole]; try rfl

/-- The invariant before position `n`: before the first point the class's (the scratch at anything); afterwards the
    scratch at what the point before left in it. -/
def inv (c : Dev nD) : (n : ℕ) → n ≤ cfg1.N → sProp 𝕄
  | 0, _ => Pipeline.ΦA spec1 c
  | n + 1, hn => iprop(restWith c (owns (c : Thread nD τ) scr fullShare (leftAt V c n hn).2) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(restWith c (owns (c : Thread nD τ) scr fullShare (leftAt V c n hn).2) ∗ (∃ r, prngReg c r)) := rfl
theorem inv_pos (c : Dev nD) (n : ℕ) (h : n ≤ cfg1.N) (hz : n ≠ 0) :
    inv V c n h = iprop(restWith c (owns (c : Thread nD τ) scr fullShare (leftAt V c (n - 1) (by omega)).2) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (leftAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem inv_castSucc (c : Dev nD) (t : Fin cfg1.N) :
    (dat V c).Φ t.castSucc = inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = (leftAt V c t.val t.isLt).1 := by dsimp only [dat]
theorem before0 (c : Dev nD) (t : Fin cfg1.N) (d) : (dat V c).before 0 t d = blk V c 0 t :=
  held0 V (dat V c) (dat_A V c 0) (after0 V c) t d
theorem before1 (c : Dev nD) (t : Fin cfg1.N) (d) : (dat V c).before 1 t d = blk V c 1 t :=
  held1 V (dat V c) (dat_A V c 1) (after1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the position modulo 4 says which way it runs; the invariant hands it the scratch at what the
    point before left (at anything at the very first point) and takes it back at this point's contents. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg1.N = 16 from N_1)
  rw [show (dat V c).leavesExact 0 t = owns (c : Thread nD τ) (ms0 t) fullShare ((dat V c).after 0 t) from by
      unfold Dat.leavesExact; rw [live0 t], after0]
  rw [show (dat V c).leavesExact 1 t = owns (c : Thread nD τ) (ms1 t) fullShare ((dat V c).after 1 t) from by
      unfold Dat.leavesExact; rw [live1 t], after1]
  by_cases h0 : t.val % 4 = 0
  · have hf : isFirst (grid1.coords t) := (isFirst_iff t).mpr h0
    have hl : ¬isLast (grid1.coords t) := fun h => by have := (isLast_iff t).mp h; omega
    rw [Dat.leavesExact_idle (dat V c) 2 t (idle2 t hl) (noFlush2 t hl)]
    rw [leftAt_first V c t h0]
    unfold sumFirst; (try dsimp only)
    by_cases hz : t.val = 0
    · rw [inv_castSucc V c t, inv_zero V c _ _ hz, PhiA_eq]; unfold restWith
      iintro ⟨⟨⟨A1, A2, A3, A4, A5, A6, A7, HS⟩, Hg⟩, Ho, ⟨%d0, H0⟩, ⟨%d1, H1⟩, ⟨%d2, H2⟩⟩
      iapply ((runFirst c (grid1.coords t) _ _ _ _ _ _ _ _ hf hl (blk V c 0 t) (blk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
    · rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runFirst c (grid1.coords t) _ _ _ _ _ _ _ _ hf hl (blk V c 0 t) (blk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverFirst c _ _ _ _ _ _ _ _ _ _ _ _ _)
        iexact Hg
      isplitl [Ho]; · iexact Ho
      isplitl [H0]; · iexact H0
      isplitl [H1]; · iexact H1
      iexists _; iexact H2
  · have hf : ¬isFirst (grid1.coords t) := fun h => h0 ((isFirst_iff t).mp h)
    have hz : t.val ≠ 0 := fun h => h0 (by rw [h])
    by_cases h1 : t.val % 4 = 3
    · have hl : isLast (grid1.coords t) := (isLast_iff t).mpr h1
      rw [show (dat V c).leavesExact 2 t = owns (c : Thread nD τ) (ms2 t) fullShare ((dat V c).after 2 t) from by
        unfold Dat.leavesExact; rw [live2 t hl], after2]
      rw [leftAt_last V c t h0 h1]
      unfold outLast sumLast; (try dsimp only)
      rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runLast c (grid1.coords t) _ _ _ _ _ _ _ _ hf hl (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverLast c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut c _ _ _ _ _ _ _ _ _ _ _ _ _ _)
    · have hl : ¬isLast (grid1.coords t) := fun h => h1 ((isLast_iff t).mp h)
      rw [Dat.leavesExact_idle (dat V c) 2 t (idle2 t hl) (noFlush2 t hl)]
      rw [leftAt_middle V c t h0 h1]
      unfold sumMiddle; (try dsimp only)
      rw [inv_castSucc V c t, inv_pos V c _ _ hz]; unfold restWith
      iintro ⟨⟨⟨A1, A2, A3, A4, A5, A6, A7, HS⟩, Hg⟩, Ho, ⟨%d0, H0⟩, ⟨%d1, H1⟩, ⟨%d2, H2⟩⟩
      iapply ((runMiddle c (grid1.coords t) _ _ _ _ _ _ _ _ hf hl (blk V c 0 t) (blk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [A1 A2 A3 A4 A5 A6 A7 HS Hg]
      · isplitl [A1 A2 A3 A4 A5 A6 A7 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          unfold owns; iexists _; isplitr
          swap; · iexact HS
          ipureintro; exact View.read_writes_of_cover _ _ _ _ _ (coverMiddle c _ _ _ _ _ _ _ _ _ _ _ _ _ _)
        iexact Hg
      isplitl [Ho]; · iexact Ho
      isplitl [H0]; · iexact H0
      isplitl [H1]; · iexact H1
      iexists _; iexact H2

/-- The obligation on the body, at every point of the grid. -/
theorem body_obligation (c : Dev nD) : BodyObligation (dat (F := F) V c) (defs₀ (F := F)) Variants.none () Set.univ := fun t => by
  rw [bigSep_W1, bigSep_W1]
  exact body_at V c t

/-- Before the first point the invariant is the class's; -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- after the last it gives the class's back, the scratch's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 16 := N_1; omega), PhiA_eq]
  unfold restWith
  iintro ⟨⟨A1, A2, A3, A4, A5, A6, A7, HS⟩, Hg⟩
  isplitl [A1 A2 A3 A4 A5 A6 A7 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS
  iexact Hg

end Cert.KernelIdeal.Accumulate

end
-- ==== Proof.WholeIdeal.lean ====
/-
  The whole program as a run: three stretches of host operations around the two pallas_calls. Between two items a core
  holds every unscoped buffer at known contents — the launch memory, then what each host stretch computes, then what a
  call's write-backs leave in its result array — beside the generator register and the fact that it owes no other core
  anything. Each call is entered with its operands' arrays split out of those buffers and left with
  them put back, the result array at the fold of the blocks written back. The run ends with every unscoped buffer at the
  last of these contents, from which both the frame (no argument array is ever written) and the result are read.
-/
import proofs.«176107_j24721831756588_1_alg».proof.Proof.Gen.KernelIdeal.Launch
import proofs.«176107_j24721831756588_1_alg».proof.Proof.Gen.KernelIdeal.Skeleton
import proofs.«176107_j24721831756588_1_alg».proof.Proof.Gen.KernelIdeal.Points
import proofs.«176107_j24721831756588_1_alg».proof.Proof.Gen.KernelIdeal.Regions
import proofs.«176107_j24721831756588_1_alg».proof.Proof.ReconstructIdeal
import proofs.«176107_j24721831756588_1_alg».proof.Proof.CarryIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items -/

/-- When the first call is entered (after the first host stretch), read at the TensorCore's references. -/
abbrev E1 (c : Dev nD) (b : Ref sig .tc) : Buf (Elt F) ((c : Thread nD τ).loc b) := Gen.V1 m c b
/-- When the first call is left: its arrays at what the pipeline leaves, the rest as entered. -/
def W2 (c : Dev nD) : Valuation τ sig (Elt F) :=
  Pipeline.withArrays spec0 c (Gen.V1 m c) fun w => (Reconstruct.dat (E1 m) c).arrAt w cfg0.N
/-- After the second host stretch, when the second call is entered. -/
abbrev W3 (c : Dev nD) : Valuation τ sig (Elt F) :=
  StableHlo.after hostOps1 (Function.update (Gen.V1 m c) main_v17 (W2 m c main_v17))
abbrev E3 (c : Dev nD) (b : Ref sig .tc) : Buf (Elt F) ((c : Thread nD τ).loc b) := W3 m c b
/-- When the second call is left. -/
def W4 (c : Dev nD) : Valuation τ sig (Elt F) :=
  Pipeline.withArrays spec1 c (W3 m c) fun w => (Accumulate.dat (E3 m) c).arrAt w cfg1.N

/-- What the two calls leave in their result arrays, in the form the generated thread states take it. -/
def outs : Gen.Outs (F := F) := fun j r c =>
  if j = 2 then W2 m c (Proc.devRef .tc r) else W4 m c (Proc.devRef .tc r)

theorem outs_two (c : Dev nD) : outs m 2 main_v17 c = W2 m c main_v17 := rfl
theorem outs_four (c : Dev nD) : outs m 4 main_v28 c = W4 m c main_v28 := rfl
theorem V3_eq (c : Dev nD) : Gen.V3 m (outs m) c = W3 m c := rfl

theorem W2_arr (c : Dev nD) (w : Fin cfg0.W) :
    W2 m c (Proc.devRef .tc (Pipeline.arrRef spec0 w)) = (Reconstruct.dat (E1 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (Accumulate.dat (E3 m) c).arrAt w cfg1.N := by
  unfold W4; exact Pipeline.withArrays_arr spec1 launch1.win.arr_inj c _ _ w

/-- The generated thread states after each call hold, at the call's result array, what the call left there. -/
theorem V2_out (c : Dev nD) : Gen.V2 m (outs m) c main_v17 = W2 m c main_v17 := by
  simp only [Gen.V2, Function.update_self]; rfl
theorem V4_out (c : Dev nD) : Gen.V4 m (outs m) c main_v28 = W4 m c main_v28 := by
  simp only [Gen.V4, Function.update_self]; rfl

/-! ## The proof data of both pipelines and what rides beside the buffers -/

def pdats : (p : Fin 2) → (c : Dev nD) → Dat τ (Elt F) Unit ℕ (UR sig nD τ) ℕ (Pipeline.pin (pcfgs (F := F)) Gen.adm p) c
  | ⟨0, _⟩ => fun c => Reconstruct.dat (E1 m) c
  | ⟨1, _⟩ => fun c => Accumulate.dat (E3 m) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The two calls as segments -/

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reconstruct.body_obligation (E1 m) c).loose
  hwaits := Pipeline.hwaits_of_owed_zero _ _ _ _ L lv 0 fun _ _ => rfl
  pre c := iprop(StableHlo.held (c : Thread nD τ) (Pipeline.ucRefs τ sig) (Gen.V1 m c) ∗ E 0 c)
  post c := iprop(StableHlo.held (c : Thread nD τ) (Pipeline.ucRefs τ sig) (Gen.V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N)
      (fun w => by
        match w with
        | ⟨0, _⟩ => exact (((Reconstruct.dat (E1 m) c).arrAt_in 0 rfl _).trans (Reconstruct.dat_A (E1 m) c 0)).trans (Gen.V2_of m (outs m) c main_v7 (by decide)).symm
        | ⟨1, _⟩ => exact (((Reconstruct.dat (E1 m) c).arrAt_in 1 rfl _).trans (Reconstruct.dat_A (E1 m) c 1)).trans (Gen.V2_of m (outs m) c main_v16 (by decide)).symm
        | ⟨2, _⟩ => exact (((Reconstruct.dat (E1 m) c).arrAt_in 2 rfl _).trans (Reconstruct.dat_A (E1 m) c 2)).trans (Gen.V2_of m (outs m) c main_v15 (by decide)).symm
        | ⟨3, _⟩ => exact (W2_arr m c 3).symm.trans (V2_out m c).symm)
      (fun b hb => Gen.V2_of m (outs m) c b (by
        intro hmem
        have : b = main_v17 := by simpa using hmem
        exact hb (Finset.mem_image.mpr ⟨3, Finset.mem_univ _, this.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Accumulate.body_obligation (E3 m) c).loose
  hwaits := Pipeline.hwaits_of_owed_zero _ _ _ _ L lv 1 fun _ _ => rfl
  pre c := iprop(StableHlo.held (c : Thread nD τ) (Pipeline.ucRefs τ sig) (W3 m c) ∗ E 1 c)
  post c := iprop(StableHlo.held (c : Thread nD τ) (Pipeline.ucRefs τ sig) (Gen.V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Accumulate.inv_in (E3 m) c)
    unfold Pipeline.ΦA
    iintro ⟨Hp, -, Hr⟩
    isplitl [Hr]; · iexact Hr
    iexact Hp
  hout c := by
    rw [Pipeline.ownSems0_none]
    refine BIBase.Entails.trans (Accumulate.inv_out (E3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b => Gen.V4 m (outs m) c b) ((pdats m 1 c).arrAt · cfg1.N)
      (fun w => by
        match w with
        | ⟨0, _⟩ => exact (((Accumulate.dat (E3 m) c).arrAt_in 0 rfl _).trans (Accumulate.dat_A (E3 m) c 0)).trans (Gen.V4_of m (outs m) c main_v27 (by decide)).symm
        | ⟨1, _⟩ => exact (((Accumulate.dat (E3 m) c).arrAt_in 1 rfl _).trans (Accumulate.dat_A (E3 m) c 1)).trans (Gen.V4_of m (outs m) c main_v26 (by decide)).symm
        | ⟨2, _⟩ => exact (W4_arr m c 2).symm.trans (V4_out m c).symm)
      (fun b hb => Gen.V4_of m (outs m) c b (by
        intro hmem
        have : b = main_v28 := by simpa using hmem
        exact hb (Finset.mem_image.mpr ⟨2, Finset.mem_univ _, this.symm⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory `m` with zero counters terminates, nothing faulting, and in
    the final memory every unscoped buffer of a core holds the last of the contents above. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨Hh, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- The frame: no argument array is written by a host stretch or changed by a call. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Gen.V5_main_arg0 m (outs m) c),
     (h c _ (mem_uc main_arg1 (by decide))).trans (Gen.V5_main_arg1 m (outs m) c),
     (h c _ (mem_uc main_arg2 (by decide))).trans (Gen.V5_main_arg2 m (outs m) c),
     (h c _ (mem_uc main_arg3 (by decide))).trans (Gen.V5_main_arg3 m (outs m) c),
     (h c _ (mem_uc main_arg4 (by decide))).trans (Gen.V5_main_arg4 m (outs m) c),
     (h c _ (mem_uc main_arg5 (by decide))).trans (Gen.V5_main_arg5 m (outs m) c),
     (h c _ (mem_uc main_arg6 (by decide))).trans (Gen.V5_main_arg6 m (outs m) c),
     (h c _ (mem_uc main_arg7 (by decide))).trans (Gen.V5_main_arg7 m (outs m) c)⟩) (run m ρ)

end Cert.KernelIdeal.Whole

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«176107_j24721831756588_1_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.LibColOps.lean ====
/-
  More two-dimensional vector operations read at one index, on the extended reals.

  A matrix product that contracts the SECOND axis of both operands, [M, K] against [N, K], is at (r, c) the sum over
  the shared axis of the left operand's row r against the right operand's row c.  A sum along the FIRST axis of an
  [a, b] vector is, at column c, the sum of that column.  An [a, p] vector with two [a, 1] columns appended along the
  second axis reads, at (r, e), the first piece for e < p, the first column at e = p and the second at e = p + 1; a sum
  over the p + 2 positions of such a row therefore splits into the sum over the first p and the two last terms.
-/
import Idealize.ShloMosaic.PureOps.Ideal.Laws
import Idealize.ShloMosaic.Lib.ValueIdx
import Idealize.ShloMosaic.Lib.Pipeline.Value

noncomputable section

namespace Cert.ColOps

open Idealize.ShloMosaic Idealize.ShloMosaic.ValueIdx

/-! ## A matrix product contracting both operands' second axes -/

/-- The dimension numbers of an `[M, K] × [N, K]` product: contract the second axis of each operand, no batch axis. -/
structure IsRowRow {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section RowRow

variable {M K N : Nat} {d : DotDims ⟨2, ![M, K]⟩ ⟨2, ![N, K]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsRowRow d) : d.contr.rank = 1 := by
  rw [d.rank_contr, hd.lc]; rfl

theorem contr_size (hd : IsRowRow d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsRowRow d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's row coordinate is the result's column coordinate. -/
theorem rhsIdx_row (hd : IsRowRow d) (j : (⟨2, ![M, N]⟩ : Shape).Idx) (k : d.contr.Idx) :
    (d.rhsIdx j k 0).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- Such a product into a zero accumulator, at (r, c): the sum over the shared axis of row r against row c. -/
theorem matmul_zero_apply (hd : IsRowRow d) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul d prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 c k :=
    funext fun a => Fin.ext (by
      match a with
      | ⟨0, _⟩ => exact rhsIdx_row hd _ _
      | ⟨1, _⟩ => exact (d.rhsIdx_val_of_single hd.rc _ _).trans hk)
  rw [el, er]

end RowRow

/-! ## A sum along the first axis -/

section Cols

variable {a b : Nat} {φ : FTy}

/-- The index over column `c` with first coordinate `k`. -/
theorem lift_col (h : (⟨2, ![a, b]⟩ : Shape).Reduces [0] ⟨1, ![b]⟩) (c : Fin b) (k : Fin a) :
    h.lift (ix1 c) k = ix2 k c :=
  funext fun x => Fin.ext (by
    show h.liftVal (ix1 c) k.val x = (ix2 k c x).val
    unfold Shape.Reduces.liftVal
    match x with
    | ⟨0, _⟩ => rfl
    | ⟨1, _⟩ => rfl)

/-- A sum along the first axis, at column `c`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_col h c k)

end Cols

/-! ## Two columns appended to a matrix -/

section Append

variable {α : Type} {a p q : Nat}

/-- Left of the appended columns the concatenation reads the matrix. -/
theorem append2_left (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val < p) :
    concatenate ⟨2, ![a, q]⟩ 1 [⟨⟨2, ![a, p]⟩, x⟩, ⟨⟨2, ![a, 1]⟩, y⟩, ⟨⟨2, ![a, 1]⟩, z⟩] h (ix2 r e)
      = x (ix2 r ⟨e.val, he⟩) :=
  concatenate_apply_piece (t := ⟨2, ![a, q]⟩) 1 [⟨⟨2, ![a, p]⟩, x⟩, ⟨⟨2, ![a, 1]⟩, y⟩, ⟨⟨2, ![a, 1]⟩, z⟩] h (ix2 r e) 0 (by simp) ⟨2, ![a, p]⟩ x rfl rfl 0 rfl (ix2 r ⟨e.val, he⟩)
    (fun b hb => by
      match b with
      | ⟨0, _⟩ => rfl
      | ⟨1, _⟩ => exact absurd rfl hb)
    (Nat.zero_add _)

/-- At position `p` it reads the first appended column. -/
theorem append2_mid (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p) :
    concatenate ⟨2, ![a, q]⟩ 1 [⟨⟨2, ![a, p]⟩, x⟩, ⟨⟨2, ![a, 1]⟩, y⟩, ⟨⟨2, ![a, 1]⟩, z⟩] h (ix2 r e)
      = y (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 1 (by simp) ⟨2, ![a, 1]⟩ y rfl rfl p (by simp) (ix2 r (0 : Fin 1))
    (fun b hb => by
      match b with
      | ⟨0, _⟩ => rfl
      | ⟨1, _⟩ => exact absurd rfl hb)
    (by show p + 0 = e.val; omega)

/-- At position `p + 1` it reads the second appended column. -/
theorem append2_right (x : (⟨2, ![a, p]⟩ : Shape).Idx → α) (y z : (⟨2, ![a, 1]⟩ : Shape).Idx → α)
    (h : Shape.Concatenates [⟨2, ![a, p]⟩, ⟨2, ![a, 1]⟩, ⟨2, ![a, 1]⟩] ⟨2, ![a, q]⟩ 1)
    (r : Fin a) (e : Fin q) (he : e.val = p + 1) :
    concatenate ⟨2, ![a, q]⟩ 1 [⟨⟨2, ![a, p]⟩, x⟩, ⟨⟨2, ![a, 1]⟩, y⟩, ⟨⟨2, ![a, 1]⟩, z⟩] h (ix2 r e)
      = z (ix2 r (0 : Fin 1)) :=
  concatenate_apply_piece (t := ⟨2, ![a, q]⟩) 1 [⟨⟨2, ![a, p]⟩, x⟩, ⟨⟨2, ![a, 1]⟩, y⟩, ⟨⟨2, ![a, 1]⟩, z⟩] h (ix2 r e) 2 (by simp) ⟨2, ![a, 1]⟩ z rfl rfl (p + 1) (by simp) (ix2 r (0 : Fin 1))
    (fun b hb => by
      match b with
      | ⟨0, _⟩ => rfl
      | ⟨1, _⟩ => exact absurd rfl hb)
    (by show p + 1 + 0 = e.val; omega)

end Append

/-- A sum over `p + 2` positions: the first `p`, then the two last. -/
theorem sum_append2 {M : Type*} [AddCommMonoid M] (p : Nat) (f : Fin (p + 2) → M) :
    ∑ e, f e = ∑ d : Fin p, f ⟨d.val, by omega⟩ + f ⟨p, by omega⟩ + f ⟨p + 1, by omega⟩ := by
  rw [Fin.sum_univ_castSucc, Fin.sum_univ_castSucc]
  rfl

end Cert.ColOps

end
-- ==== Proof.Payloads.lean ====
/-
  The arithmetic of the two kernel bodies read at one entry, on the extended reals (where a change of float format is
  the identity).

  First call: entry (p, q) of the block product is the sum over the 256 shared coordinates r of
  (left (p, r) · scale r) · right (r, q) — the scale row broadcast down the rows before the product.
  Second call: the clearing store is zero everywhere; the accumulating store holds, at (p, q), the running sum read
  before it plus the sum over the tile's 1024 shared coordinates k of left (p, k) · right (q, k) — both operands are
  contracted along their second axis.
-/
import proofs.«176107_j24721831756588_1_alg».proof.Proof.Gen.KernelIdeal.Skeleton
import proofs.«176107_j24721831756588_1_alg».proof.Proof.LibMatmulRows
import proofs.«176107_j24721831756588_1_alg».proof.Proof.LibColOps
import Idealize.ShloMosaic.Lib.Pipeline.Value
import Idealize.ShloMosaic.Lib.ValueIdx
import Idealize.ShloMosaic.PureOps.Ideal.Laws

set_option maxRecDepth 16384

noncomputable section

namespace Cert.KernelIdeal.Arith

open Cert.KernelIdeal Cert.KernelIdeal.Gen
open Idealize.ShloMosaic Idealize.ShloMosaic.ValueIdx

/-- The scale row broadcast down the rows reads, at (p, r), the row's entry r. -/
theorem scale_at (xS : S1x256.Idx → EReal) (h : S1x256.Broadcasts S1024x256) (p : Fin 1024) (r : Fin 256) :
    broadcastTo S1024x256 xS h (ix2 p r) = xS (ix2 (0 : Fin 1) r) :=
  broadcastTo_apply xS h (ix2 p r) (ix2 (0 : Fin 1) r) (fun a => by
    match a with
    | ⟨0, _⟩ => rfl
    | ⟨1, _⟩ => rfl)

/-- Entry (p, q) of the first call's block product. -/
theorem reconstruct_at (xU : Vec Ideal S1024x256 .f32) (xS : Vec Ideal S1x256 .f32) (xV : Vec Ideal S256x1024 .f32)
    (p : Fin 1024) (q : Fin 1024) :
    k0_pay1 (F := Ideal) xU xS xV (ix2 p q) = ∑ r : Fin 256, (xU (ix2 p r) * xS (ix2 (0 : Fin 1) r)) * xV (ix2 r q) := by
  unfold k0_pay1
  (try dsimp only)
  refine (Cert.MatmulRows.matmul_zero_ix2 dot_S1024x256_S256x1024_S1024x1024_1_0_0_1_n_n rfl rfl rfl rfl rfl rfl none _ _ p q).trans ?_
  refine Finset.sum_congr rfl fun r _ => ?_
  simp only [shapeCast_self]
  show (xU (ix2 p r) * broadcastTo S1024x256 xS _ (ix2 p r)) * xV (ix2 r q) = _
  rw [scale_at]

/-- The clearing store is zero everywhere. -/
theorem cleared_at (i : S512x1024.Idx) : k1_pay1 (F := Ideal) i = 0 := by
  unfold k1_pay1
  (try dsimp only)
  simp only [shapeCast_self]
  exact Ideal.ofBits_zero_f32

/-- Entry (p, q) of the accumulating store. -/
theorem accumulate_at (x0 : Vec Ideal S512x1024 .f32) (x1 : Vec Ideal S1024x1024 .f32) (acc : Vec Ideal S512x1024 .f32)
    (p : Fin 512) (q : Fin 1024) :
    k1_pay2 (F := Ideal) x0 x1 acc (ix2 p q) = acc (ix2 p q) + ∑ k : Fin 1024, x0 (ix2 p k) * x1 (ix2 q k) := by
  unfold k1_pay2
  (try dsimp only)
  simp only [shapeCast_self]
  refine congrArg (acc (ix2 p q) + ·) ?_
  exact Cert.ColOps.matmul_zero_apply (d := dot_S512x1024_S1024x1024_S512x1024_1_1_0_0_n_n) ⟨rfl, rfl, rfl, rfl, rfl, rfl⟩ none _ _ p q

end Cert.KernelIdeal.Arith

end
-- ==== Proof.ProductArray.lean ====
/-
  The first call's result array, whole. The point (i, j) writes back block (i, j) of the 4096 × 4096 result, and the
  entry (p, q) of that block is the sum over r of (left (1024 i + p, r) · scale r) · right (r, 1024 j + q): the left
  operand's block is block row i, the right operand's is block column j, the scale row is read whole. The sixteen blocks
  tile the array, so the array ends holding, at every (o, n), the sum over the 256 shared coordinates r of
  (left (o, r) · scale r) · right (r, n).
-/
import proofs.«176107_j24721831756588_1_alg».proof.Proof.ReconstructIdeal
import proofs.«176107_j24721831756588_1_alg».proof.Proof.Payloads
import Idealize.ShloMosaic.Lib.Pipeline.Value

set_option maxRecDepth 16384

noncomputable section

namespace Cert.KernelIdeal.Reconstruct

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The scaled product of a 4096 × 256 array with a 256 × 4096 array, the scales a 1 × 256 row. -/
def product (U : S4096x256.Idx → EReal) (S2 : S1x256.Idx → EReal) (Vh : S256x4096.Idx → EReal) : S4096x4096.Idx → EReal :=
  fun i => ∑ r : Fin 256, (U (ix2 (⟨(i 0).val, idx2_lt0 i⟩ : Fin 4096) r) * S2 (ix2 (0 : Fin 1) r))
    * Vh (ix2 r (⟨(i 1).val, idx2_lt1 i⟩ : Fin 4096))

/-- The three operand arrays as the call finds them, as arrays of extended reals. -/
abbrev arrU (c : Dev nD) : S4096x256.Idx → EReal := V c main_v7
abbrev arrS (c : Dev nD) : S1x256.Idx → EReal := V c main_v16
abbrev arrV (c : Dev nD) : S256x4096.Idx → EReal := V c main_v15

/-- Which blocks the point `t` works on, decided over the grid: the left operand's block row and the right operand's
    block column are the result block's; every other block index is zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every block of the result is some point's. -/
theorem idx_onto : ∀ (q0 : Fin 4) (q1 : Fin 4), ∃ t : Fin cfg0.N, win0_3.index t = ![q0.val, q1.val] :=
  (by decide +kernel : ∀ (q0 : Fin 4) (q1 : Fin 4), ∃ t : Fin grid0.N, win0_3.index t = ![q0.val, q1.val])

/-- What the point `t` writes back is block `t` of the whole product of the operand arrays as the call finds them. -/
theorem flushed_eq (c : Dev nD) (t : Fin cfg0.N) :
    (dat V c).flushed 3 t = ((cfg0.win 3).blk t).view.read (Elt Ideal) (product (arrU V c) (arrS V c) (arrV V c)) := by
  show (cfg0.win 3).cut (grid0.coords t) ((dat V c).after 3 t) = _
  rw [after3]
  unfold prodBlock
  rw [View.canon_unit_zero zero_off]
  simp only [View.ld_unit_zero (S := S1024x256) zero_off, View.ld_unit_zero (S := S1x256) zero_off, View.ld_unit_zero (S := S256x1024) zero_off]
  obtain ⟨e0, e1, e2, e3, e4, e5, e6, e7⟩ := idx_facts t
  funext j
  obtain ⟨p, q, rfl⟩ : ∃ (p : Fin 1024) (q : Fin 1024), j = ix2 p q := ⟨j 0, j 1, eq_ix2 j⟩
  refine (Arith.reconstruct_at _ _ _ p q).trans ?_
  show _ = product _ _ _ (((cfg0.win 3).blk t).view.emb (ix2 p q))
  unfold product
  refine Finset.sum_congr rfl fun r _ => ?_
  show arrU V c (((cfg0.win 0).blk t).view.emb (ix2 p r)) * arrS V c (((cfg0.win 1).blk t).view.emb (ix2 (0 : Fin 1) r))
      * arrV V c (((cfg0.win 2).blk t).view.emb (ix2 r q)) = _
  have hU : ((cfg0.win 0).blk t).view.emb (ix2 p r)
      = ix2 (⟨((((cfg0.win 3).blk t).view.emb (ix2 p q)) 0).val, idx2_lt0 _⟩ : Fin 4096) r := by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 256 + 1 * r.val = r.val; omega
  have hS : ((cfg0.win 1).blk t).view.emb (ix2 (0 : Fin 1) r) = ix2 (0 : Fin 1) r := by
    funext a; apply Fin.ext
    match a with
    | ⟨0, _⟩ => show win0_1.index t (0 : Fin 2) * 1 + 1 * 0 = 0; omega
    | ⟨1, _⟩ => show win0_1.index t (1 : Fin 2) * 256 + 1 * r.val = r.val; omega
  have hV : ((cfg0.win 2).blk t).view.emb (ix2 r q)
      = ix2 r (⟨((((cfg0.win 3).blk t).view.emb (ix2 p q)) 1).val, idx2_lt1 _⟩ : Fin 4096) := by
    funext a; apply Fin.ext
    match a with
    | ⟨0, _⟩ => show win0_2.index t (0 : Fin 2) * 256 + 1 * r.val = r.val; omega
    | ⟨1, _⟩ => show win0_2.index t (1 : Fin 2) * 1024 + 1 * q.val = win0_3.index t (1 : Fin 2) * 1024 + 1 * q.val; omega
  rw [hU, hS, hV]

/-- An index of the result is in the point `t`'s block iff each coordinate is in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v17).slice (win0_3.rect t)).set ↔ _
  rw [View.set_slice_whole, Rect.mem_set_unit]
  exact Iff.rfl

/-- The result array after the call: the whole product. -/
theorem final (c : Dev nD) : (dat V c).arrAt 3 cfg0.N = product (arrU V c) (arrS V c) (arrV V c) :=
  (dat V c).arrAt_eq_of_cover 3 _ (fun t _ => flushed_eq V c t) fun i => by
    have hi0 : (i 0).val < 4096 := (i 0).isLt
    have hi1 : (i 1).val < 4096 := (i 1).isLt
    obtain ⟨t, ht⟩ := idx_onto ⟨(i 0).val / 1024, by omega⟩ ⟨(i 1).val / 1024, by omega⟩
    have q0 : win0_3.index t (0 : Fin 2) = (i 0).val / 1024 := congrFun ht 0
    have q1 : win0_3.index t (1 : Fin 2) = (i 1).val / 1024 := congrFun ht 1
    refine ⟨t, flush0_3 t, ?_⟩
    rw [mem_blk]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

end Cert.KernelIdeal.Reconstruct

end
-- ==== Proof.Pieces.lean ====
/-
  What each way of running the second call's body leaves, as the body's own arithmetic: the scratch ends at the
  accumulating store's value — over the cleared buffer at k = 0, over what the point before left otherwise — and at
  k = 3 the output's staging buffer ends at a copy of that.
-/
import proofs.«176107_j24721831756588_1_alg».proof.Proof.CarryIdeal
import Idealize.ShloMosaic.Lib.Pipeline.Value

set_option maxRecDepth 16384

noncomputable section

namespace Cert.KernelIdeal.Accumulate

open Cert.KernelIdeal Cert.KernelIdeal.Gen
open Idealize.ShloMosaic Idealize.ShloMosaic.TcCoe Idealize.ShloMosaic.Tactic
open Idealize.SL.Sem

variable {F : FTy → Type} [FloatOps F]

theorem zero_off : (![0, 0] : Fin 2 → Nat) = fun _ => 0 := funext fun a => by fin_cases a <;> rfl

section
variable (c : Dev nD) (i : grid1.Coords) (arg2 : Memref sig .tc .vmem S512x1024 .f32) (harg2 : arg2.IsWhole)
    (arg3 : Memref sig .tc .vmem S1024x1024 .f32) (harg3 : arg3.IsWhole) (arg4 : Memref sig .tc .vmem S512x1024 .f32) (harg4 : arg4.IsWhole)
    (arg5 : Memref sig .tc .vmem S512x1024 .f32) (harg5 : arg5.IsWhole)
    (x0 : Vec F S512x1024 .f32) (x1 : Vec F S1024x1024 .f32) (xs : Vec F S512x1024 .f32)

/-- k = 0: the sum over the cleared buffer. -/
theorem sumFirst_eq (hc0 : isFirst i) (hc1 : ¬isLast i) :
    sumFirst c i arg2 harg2 arg3 harg3 arg4 harg4 arg5 harg5 x0 x1 hc0 hc1 = k1_pay2 x0 x1 (k1_pay1 (F := F)) := by
  unfold sumFirst
  rw [View.read_writes_eq_canon _ _ _ (coverFirst c i arg2 harg2 arg3 harg3 arg4 harg4 arg5 harg5 x0 x1 hc0 hc1)]
  unfold runFirst
  dsimp only
  sl_unfold_words
  rw [View.canon_cons_unit_zero (S := S512x1024) zero_off, View.readCov_unit_zero (S := S512x1024) _ zero_off]
  simp only [View.readAt_eq_ld, harg2.read_unread, harg3.read_unread, View.ld_unit_zero (S := S512x1024) zero_off,
    View.ld_unit_zero (S := S1024x1024) zero_off]

/-- k = 1, 2: the sum over what the point before left. -/
theorem sumMiddle_eq (hc0 : ¬isFirst i) (hc1 : ¬isLast i) :
    sumMiddle c i arg2 harg2 arg3 harg3 arg4 harg4 arg5 harg5 x0 x1 xs hc0 hc1 = k1_pay2 x0 x1 xs := by
  unfold sumMiddle
  rw [View.read_writes_eq_canon _ _ _ (coverMiddle c i arg2 harg2 arg3 harg3 arg4 harg4 arg5 harg5 x0 x1 xs hc0 hc1)]
  unfold runMiddle
  dsimp only
  rw [View.canon_unit_zero (S := S512x1024) zero_off]
  simp only [View.readAt_eq_ld, harg2.read_unread, harg3.read_unread, harg5.read_unread, View.ld_unit_zero (S := S512x1024) zero_off,
    View.ld_unit_zero (S := S1024x1024) zero_off]

/-- k = 3: the same in the scratch, -/
theorem sumLast_eq (hc0 : ¬isFirst i) (hc1 : isLast i) :
    sumLast c i arg2 harg2 arg3 harg3 arg4 harg4 arg5 harg5 x0 x1 xs hc0 hc1 = k1_pay2 x0 x1 xs := by
  unfold sumLast
  rw [View.read_writes_eq_canon _ _ _ (coverLast c i arg2 harg2 arg3 harg3 arg4 harg4 arg5 harg5 x0 x1 xs hc0 hc1)]
  unfold runLast
  dsimp only
  sl_unfold_words
  rw [View.canon_unit_zero (S := S512x1024) zero_off]
  simp only [View.readAt_eq_ld, harg2.read_unread, harg3.read_unread, harg5.read_unread, View.ld_unit_zero (S := S512x1024) zero_off,
    View.ld_unit_zero (S := S1024x1024) zero_off]

/-- and its copy in the output's staging buffer. -/
theorem outLast_eq (hc0 : ¬isFirst i) (hc1 : isLast i) :
    outLast c i arg2 harg2 arg3 harg3 arg4 harg4 arg5 harg5 x0 x1 xs hc0 hc1 = k1_pay2 x0 x1 xs := by
  unfold outLast
  rw [View.read_writes_eq_canon _ _ _ (coverOut c i arg2 harg2 arg3 harg3 arg4 harg4 arg5 harg5 x0 x1 xs hc0 hc1)]
  unfold runLast
  dsimp only
  sl_unfold_words
  rw [View.canon_unit_zero (S := S512x1024) zero_off, View.readCov_unit_zero (S := S512x1024) _ zero_off]
  simp only [View.readAt_eq_ld, harg2.read_unread, harg3.read_unread, harg5.read_unread, View.ld_unit_zero (S := S512x1024) zero_off,
    View.ld_unit_zero (S := S1024x1024) zero_off]

end

end Cert.KernelIdeal.Accumulate

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.Accumulated.lean ====
/-
  A contraction accumulated tile by tile.

  A sum over 4096 shared coordinates taken 1024 at a time: an accumulator is cleared, then each of the four tiles' partial
  sums is added to it in turn. On the extended reals addition is associative and commutative and zero is neutral (no
  finiteness is needed for any of this), so what the accumulator ends holding is the sum over all 4096 coordinates.
-/
import proofs.«176107_j24721831756588_1_alg».proof.Proof.LibTiledSum
import Mathlib.Data.EReal.Basic

open scoped BigOperators

namespace Cert.Accumulated

/-- The accumulator after tile `k` has been added: cleared before the first tile, each tile's partial sum added in turn. -/
noncomputable def acc (f : Fin 4096 → EReal) : ℕ → EReal
  | 0 => 0 + ∑ l : Fin 1024, f (Cert.TiledSum.tile (T := 4) (n := 1024) rfl 0 l)
  | k + 1 => acc f k + (if h : k + 1 < 4 then ∑ l : Fin 1024, f (Cert.TiledSum.tile (T := 4) (n := 1024) rfl ⟨k + 1, h⟩ l) else 0)

/-- After the fourth tile the accumulator holds the whole sum. -/
theorem acc_three (f : Fin 4096 → EReal) : acc f 3 = ∑ i : Fin 4096, f i := by
  rw [Cert.TiledSum.sum_tiles (T := 4) (n := 1024) rfl f, Fin.sum_univ_four]
  simp only [acc, zero_add]
  rw [dif_pos (by decide), dif_pos (by decide), dif_pos (by decide)]
  rfl

end Cert.Accumulated
-- ==== Proof.SumArray.lean ====
/-
  The second call's result array, whole. Write t = 4 j + k for the point. Its left block is columns 1024 k … of the
  512 × 4096 left array, its right block is rows 1024 j …, columns 1024 k … of the 4096 × 4096 right array, so the
  product the body adds at entry (p, q) is the partial sum, over the k-th tile of 1024 shared coordinates i, of
  left (p, i) · right (1024 j + q, i). By induction on the point the scratch therefore holds, after point t, the
  accumulator "cleared, then tiles 0 … k added in turn" of that term; after k = 3 this is the sum over all 4096
  shared coordinates, and that is what is copied out and written back as block j of the result. The four blocks tile
  the 512 × 4096 result.
-/
import proofs.«176107_j24721831756588_1_alg».proof.Proof.Pieces
import proofs.«176107_j24721831756588_1_alg».proof.Proof.Payloads
import proofs.«176107_j24721831756588_1_alg».proof.Proof.Accumulated
import Idealize.ShloMosaic.Lib.Pipeline.Value

set_option maxRecDepth 16384

noncomputable section

namespace Cert.KernelIdeal.Accumulate

open Cert.KernelIdeal Cert.KernelIdeal.Gen
open Idealize.ShloMosaic Idealize.ShloMosaic.TcCoe Idealize.ShloMosaic.ValueIdx
open Idealize.SL.Sem
open Idealize.ShloMosaic.Pipeline (Dat)
open Cert.TiledSum (tile)
open Cert.Accumulated (acc)

variable (V : (c : Dev nD) → (b : Ref sig .tc) → Buf (Elt Ideal) ((c : Thread nD τ).loc b))

/-- The product of a 512 × 4096 array with the transpose of a 4096 × 4096 array. -/
def contraction (X : S512x4096.Idx → EReal) (W : S4096x4096.Idx → EReal) : S512x4096.Idx → EReal :=
  fun i => ∑ k : Fin 4096, X (ix2 (⟨(i 0).val, idx2_lt0 i⟩ : Fin 512) k) * W (ix2 (⟨(i 1).val, idx2_lt1 i⟩ : Fin 4096) k)

/-- The two operand arrays as the call finds them, as arrays of extended reals. -/
abbrev arrX (c : Dev nD) : S512x4096.Idx → EReal := V c main_v27
abbrev arrW (c : Dev nD) : S4096x4096.Idx → EReal := V c main_v26

/-- The term summed for row `p` of the left array against row `o` of the right array. -/
def term (c : Dev nD) (p : Fin 512) (o : Fin 4096) : Fin 4096 → EReal :=
  fun i => arrX V c (ix2 p i) * arrW V c (ix2 o i)

/-- The two input blocks of the point `t`, as arrays of extended reals. -/
abbrev lblk (c : Dev nD) (t : Fin cfg1.N) : Vec Ideal S512x1024 .f32 := blk V c 0 t
abbrev rblk (c : Dev nD) (t : Fin cfg1.N) : Vec Ideal S1024x1024 .f32 := blk V c 1 t

theorem lt16 {n : ℕ} (hn : n < cfg1.N) : n < 16 := lt_of_lt_of_eq hn (show cfg1.N = 16 from N_1)

/-- The row of the right array that entry (·, q) of the point at position `n` reads. -/
def rowOf (n : ℕ) (hn : n < 16) (q : Fin 1024) : Fin 4096 := ⟨1024 * (n / 4) + q.val, by have := q.isLt; omega⟩

/-- Which blocks the point `t` works on, decided over the grid. -/
theorem idx_facts : ∀ t : Fin cfg1.N,
    win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = 0 ∧ win1_2.index t (1 : Fin 2) = t.val / 4 :=
  (by decide +kernel : ∀ t : Fin grid1.N, _)

/-- The product the body adds at point `t`, entry (p, q): the partial sum over tile `t mod 4`. -/
theorem tile_sum (c : Dev nD) (t : Fin cfg1.N) (p : Fin 512) (q : Fin 1024) (k : Fin 4) (hk : k.val = t.val % 4) :
    ∑ l : Fin 1024, lblk V c t (ix2 p l) * rblk V c t (ix2 q l)
      = ∑ l : Fin 1024, term V c p (rowOf t.val (lt16 t.isLt) q) (tile (T := 4) (n := 1024) rfl k l) := by
  obtain ⟨e0, e1, e2, e3, e4, e5⟩ := idx_facts t
  refine Finset.sum_congr rfl fun l _ => ?_
  show arrX V c (((cfg1.win 0).blk t).view.emb (ix2 p l)) * arrW V c (((cfg1.win 1).blk t).view.emb (ix2 q l))
    = arrX V c (ix2 p (tile (T := 4) (n := 1024) rfl k l))
      * arrW V c (ix2 (rowOf t.val (lt16 t.isLt) q) (tile (T := 4) (n := 1024) rfl k l))
  have h0 : ((cfg1.win 0).blk t).view.emb (ix2 p l) = ix2 p (tile (T := 4) (n := 1024) rfl k l) := by
    funext a; apply Fin.ext
    match a with
    | ⟨0, _⟩ => show win1_0.index t (0 : Fin 2) * 512 + 1 * p.val = p.val; omega
    | ⟨1, _⟩ => show win1_0.index t (1 : Fin 2) * 1024 + 1 * l.val = 1024 * k.val + l.val; omega
  have h1 : ((cfg1.win 1).blk t).view.emb (ix2 q l) = ix2 (rowOf t.val (lt16 t.isLt) q) (tile (T := 4) (n := 1024) rfl k l) := by
    funext a; apply Fin.ext
    match a with
    | ⟨0, _⟩ => show win1_1.index t (0 : Fin 2) * 1024 + 1 * q.val = 1024 * (t.val / 4) + q.val; omega
    | ⟨1, _⟩ => show win1_1.index t (1 : Fin 2) * 1024 + 1 * l.val = 1024 * k.val + l.val; omega
  rw [h0, h1]

/-- What the accumulating store leaves at (p, q) over a cleared buffer: the accumulator after its first tile. -/
theorem first_at (c : Dev nD) (t : Fin cfg1.N) (h0 : t.val % 4 = 0) (p : Fin 512) (q : Fin 1024) :
    k1_pay2 (F := Ideal) (lblk V c t) (rblk V c t) (k1_pay1 (F := Ideal)) (ix2 p q)
      = acc (term V c p (rowOf t.val (lt16 t.isLt) q)) (t.val % 4) := by
  refine (Arith.accumulate_at _ _ _ p q).trans ?_
  rw [Arith.cleared_at, tile_sum V c t p q 0 h0.symm, h0]
  rfl

/-- What it leaves over the accumulator after tile `k`: the accumulator after tile `k + 1`. -/
theorem next_at (c : Dev nD) (n : ℕ) (hn : n + 1 < cfg1.N) (h0 : ¬(n + 1) % 4 = 0) (xs : Vec Ideal S512x1024 .f32)
    (p : Fin 512) (q : Fin 1024) (hxs : xs (ix2 p q) = acc (term V c p (rowOf n (lt16 (Nat.lt_of_succ_lt hn)) q)) (n % 4)) :
    k1_pay2 (F := Ideal) (lblk V c ⟨n + 1, hn⟩) (rblk V c ⟨n + 1, hn⟩) xs (ix2 p q)
      = acc (term V c p (rowOf (n + 1) (lt16 hn) q)) ((n + 1) % 4) := by
  have hN := lt16 hn
  have hk : (n + 1) % 4 = n % 4 + 1 := by omega
  have hlt : n % 4 + 1 < 4 := by omega
  have hrow : rowOf (n + 1) (lt16 hn) q = rowOf n (lt16 (Nat.lt_of_succ_lt hn)) q := Fin.ext (by
    show 1024 * ((n + 1) / 4) + q.val = 1024 * (n / 4) + q.val
    have : (n + 1) / 4 = n / 4 := by omega
    rw [this])
  refine (Arith.accumulate_at _ _ _ p q).trans ?_
  rw [hxs, tile_sum V c ⟨n + 1, hn⟩ p q ⟨n % 4 + 1, hlt⟩ hk.symm, hk]
  show _ = acc _ (n % 4) + (if h : n % 4 + 1 < 4 then _ else 0)
  rw [dif_pos hlt, hrow]

/-- After the point at position `n` the scratch holds, at (p, q), the accumulator after tile `n mod 4`. -/
theorem carried_eq (c : Dev nD) (p : Fin 512) (q : Fin 1024) : ∀ (n : ℕ) (hn : n < cfg1.N),
    (leftAt V c n hn).2 (ix2 p q) = acc (term V c p (rowOf n (lt16 hn) q)) (n % 4)
  | 0, hn => by
    rw [leftAt_first V c ⟨0, hn⟩ (Nat.zero_mod _)]
    dsimp only
    rw [sumFirst_eq]
    exact first_at V c ⟨0, hn⟩ (Nat.zero_mod _) p q
  | n + 1, hn => by
    by_cases h0 : (n + 1) % 4 = 0
    · rw [leftAt_first V c ⟨n + 1, hn⟩ h0]
      dsimp only
      rw [sumFirst_eq]
      exact first_at V c ⟨n + 1, hn⟩ h0 p q
    · have ih := carried_eq c p q n (Nat.lt_of_succ_lt hn)
      by_cases h1 : (n + 1) % 4 = 3
      · rw [leftAt_last V c ⟨n + 1, hn⟩ h0 h1]
        dsimp only
        rw [sumLast_eq]
        exact next_at V c n hn h0 _ p q ih
      · rw [leftAt_middle V c ⟨n + 1, hn⟩ h0 h1]
        dsimp only
        rw [sumMiddle_eq]
        exact next_at V c n hn h0 _ p q ih

/-- At k = 3 the output's staging buffer holds a copy of the scratch. -/
theorem copied (c : Dev nD) (t : Fin cfg1.N) (h0 : ¬t.val % 4 = 0) (h1 : t.val % 4 = 3) :
    (leftAt V c t.val t.isLt).1 = (leftAt V c t.val t.isLt).2 := by
  rw [leftAt_last V c t h0 h1]
  dsimp only
  rw [outLast_eq, sumLast_eq]

/-- Every block of the result is written back by some point. -/
theorem idx_onto : ∀ q1 : Fin 4, ∃ t : Fin cfg1.N, (cfg1.win 2).flush t = true ∧ win1_2.index t = ![0, q1.val] :=
  (by decide +kernel : ∀ q1 : Fin 4, ∃ t : Fin grid1.N, win1_2.flush t = true ∧ win1_2.index t = ![0, q1.val])

/-- What a point that writes back writes: its block of the whole contraction. -/
theorem flushed_eq (c : Dev nD) (t : Fin cfg1.N) (hf : (cfg1.win 2).flush t = true) :
    (dat V c).flushed 2 t = ((cfg1.win 2).blk t).view.read (Elt Ideal) (contraction (arrX V c) (arrW V c)) := by
  have h1 : t.val % 4 = 3 := (flush1_2 t).mp hf
  have h0 : ¬t.val % 4 = 0 := by omega
  obtain ⟨e0, e1, e2, e3, e4, e5⟩ := idx_facts t
  show (cfg1.win 2).cut (grid1.coords t) ((dat V c).after 2 t) = _
  rw [after2, copied V c t h0 h1]
  funext j
  obtain ⟨p, q, rfl⟩ : ∃ (p : Fin 512) (q : Fin 1024), j = ix2 p q := ⟨j 0, j 1, eq_ix2 j⟩
  refine (carried_eq V c p q t.val t.isLt).trans ?_
  rw [h1, Cert.Accumulated.acc_three]
  show _ = contraction _ _ (((cfg1.win 2).blk t).view.emb (ix2 p q))
  unfold contraction term
  refine Finset.sum_congr rfl fun i _ => ?_
  have hp : (⟨((((cfg1.win 2).blk t).view.emb (ix2 p q)) 0).val, idx2_lt0 _⟩ : Fin 512) = p := Fin.ext (by
    show win1_2.index t (0 : Fin 2) * 512 + 1 * p.val = p.val; omega)
  have ho : (⟨((((cfg1.win 2).blk t).view.emb (ix2 p q)) 1).val, idx2_lt1 _⟩ : Fin 4096) = rowOf t.val (lt16 t.isLt) q := Fin.ext (by
    show win1_2.index t (1 : Fin 2) * 1024 + 1 * q.val = 1024 * (t.val / 4) + q.val; omega)
  rw [hp, ho]

/-- An index of the result is in the point `t`'s block iff each coordinate is in the block's range. -/
theorem mem_blk (t : Fin cfg1.N) (i : S512x4096.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v28).slice (win1_2.rect t)).set ↔ _
  rw [View.set_slice_whole, Rect.mem_set_unit]
  exact Iff.rfl

/-- The result array after the call: the whole contraction. -/
theorem final (c : Dev nD) : (dat V c).arrAt 2 cfg1.N = contraction (arrX V c) (arrW V c) :=
  (dat V c).arrAt_eq_of_cover 2 _ (fun t hf => flushed_eq V c t hf) fun i => by
    have hi0 : (i 0).val < 512 := (i 0).isLt
    have hi1 : (i 1).val < 4096 := (i 1).isLt
    obtain ⟨t, hf, ht⟩ := idx_onto ⟨(i 1).val / 1024, by omega⟩
    have q0 : win1_2.index t (0 : Fin 2) = 0 := congrFun ht 0
    have q1 : win1_2.index t (1 : Fin 2) = (i 1).val / 1024 := congrFun ht 1
    refine ⟨t, hf, ?_⟩
    rw [mem_blk]
    intro a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 1024 ≤ (i 1).val ∧ (i 1).val < win1_2.index t (1 : Fin 2) * 1024 + 1024; omega

end Cert.KernelIdeal.Accumulate

end
-- ==== Proof.Bridge.lean ====
/-
  The two whole-array functions the kernel computes are the reference's two products.

  The reference scales the left factor by the row of scales broadcast to a 1 × 256 row and then down the 4096 rows, and
  multiplies the result with the right factor by a general product contracting the shared axis of extent 256; the kernel's
  first call reads the scales as a 1 × 256 reshape. Entry by entry both are the sum over r of (left (o, r) · scale r) ·
  right (r, n). The reference's last product contracts the last axis of the 4 × 128 × 4096 input with the second axis of
  the 4096 × 4096 weight; the kernel flattens the input to 512 × 4096, contracts it with the same weight and reshapes the
  result back: entry (b, s, o) of both is the sum over i of input (b, s, i) · weight (o, i), row 128 b + s of the flattened
  arrays being (b, s) of the rank-3 ones.
-/
import proofs.«176107_j24721831756588_1_alg».proof.Proof.Gen.ReferenceIdeal.Read
import proofs.«176107_j24721831756588_1_alg».proof.Proof.ProductArray
import proofs.«176107_j24721831756588_1_alg».proof.Proof.SumArray
import Idealize.ShloMosaic.Lib.Pipeline.Value
import Idealize.ShloMosaic.Lib.ValueIdx

set_option maxRecDepth 16384

noncomputable section

namespace Cert.Bridge

open Cert.ReferenceIdeal Cert.ReferenceIdeal.Gen Cert.ReferenceIdeal.Read
open Idealize.ShloMosaic Idealize.ShloMosaic.ValueIdx

variable (x0 : (⟨S4x128x4096, .f32⟩ : BufTy).Contents (Elt Ideal)) (x1 : (⟨S131072, .i32⟩ : BufTy).Contents (Elt Ideal))
  (x2 : (⟨S256x8, .f32⟩ : BufTy).Contents (Elt Ideal)) (x3 : (⟨S256, .f32⟩ : BufTy).Contents (Elt Ideal))
  (x4 : (⟨S131072, .i32⟩ : BufTy).Contents (Elt Ideal)) (x5 : (⟨S256x8, .f32⟩ : BufTy).Contents (Elt Ideal))
  (x6 : (⟨S262144, .i32⟩ : BufTy).Contents (Elt Ideal)) (x7 : (⟨S262144, .f32⟩ : BufTy).Contents (Elt Ideal))

/-- The scaled product of the two gathered factors is the reference's first product. -/
theorem product_eq (h : S256.ShapeCasts S1x256) :
    Cert.KernelIdeal.Reconstruct.product (val_main_v7 (F := Ideal) x1 x2) (shapeCast S1x256 x3 h) (val_main_v15 (F := Ideal) x4 x5)
      = val_main_v19 (F := Ideal) x1 x2 x3 x4 x5 := by
  funext i
  rw [val_main_v19_apply]
  unfold Cert.KernelIdeal.Reconstruct.product
  refine Finset.sum_congr rfl fun r _ => ?_
  have e1 : lidx_main_v19 i r = ix2 (⟨(i 0).val, idx2_lt0 i⟩ : Fin 4096) r := funext fun a => by
    match a with
    | ⟨0, _⟩ => rfl
    | ⟨1, _⟩ => rfl
  have e2 : ridx_main_v19 i r = ix2 r (⟨(i 1).val, idx2_lt1 i⟩ : Fin 4096) := funext fun a => by
    match a with
    | ⟨0, _⟩ => rfl
    | ⟨1, _⟩ => rfl
  have e3 : shapeCast S1x256 x3 h (ix2 (0 : Fin 1) r) = x3 (idx_main_v16 (idx_main_v17 (lidx_main_v19 i r))) :=
    shapeCast_apply x3 h _ _ (by
      rw [Shape.rowMajor_val_one, Shape.rowMajor_val_two]
      show r.val = 0 * 256 + r.val
      omega)
  rw [val_main_v18_apply, val_main_v17_apply, val_main_v16_apply, ← e3, e1, e2]
  rfl

/-- The flattened contraction, reshaped back, is the reference's last product. -/
theorem contraction_eq (h1 : S4x128x4096.ShapeCasts Cert.KernelIdeal.S512x4096) (h2 : Cert.KernelIdeal.S512x4096.ShapeCasts S4x128x4096) :
    shapeCast S4x128x4096 (Cert.KernelIdeal.Accumulate.contraction (shapeCast Cert.KernelIdeal.S512x4096 x0 h1)
        (val_main_v28 (F := Ideal) x1 x2 x3 x4 x5 x6 x7)) h2
      = val_main_v29 (F := Ideal) x0 x1 x2 x3 x4 x5 x6 x7 := by
  funext i
  obtain ⟨b, s, o, rfl⟩ : ∃ (b : Fin 4) (s : Fin 128) (o : Fin 4096), i = ix3 b s o := ⟨i 0, i 1, i 2, eq_ix3 i⟩
  rw [val_main_v29_apply]
  have hp : 128 * b.val + s.val < 512 := by have := b.isLt; have := s.isLt; omega
  rw [shapeCast_apply _ h2 (ix3 b s o) (ix2 (⟨128 * b.val + s.val, hp⟩ : Fin 512) o) (by
    rw [Shape.rowMajor_val_two, Shape.rowMajor_val_three]
    show (128 * b.val + s.val) * 4096 + o.val = (b.val * 128 + s.val) * 4096 + o.val
    omega)]
  unfold Cert.KernelIdeal.Accumulate.contraction
  refine Finset.sum_congr rfl fun k _ => ?_
  have e1 : shapeCast Cert.KernelIdeal.S512x4096 x0 h1 (ix2 (⟨128 * b.val + s.val, hp⟩ : Fin 512) k) = x0 (lidx_main_v29 (ix3 b s o) k) :=
    shapeCast_apply x0 h1 _ _ (by
      rw [Shape.rowMajor_val_three, Shape.rowMajor_val_two]
      show (b.val * 128 + s.val) * 4096 + k.val = (128 * b.val + s.val) * 4096 + k.val
      omega)
  have e2 : ridx_main_v29 (ix3 b s o) k = ix2 o k := funext fun a => by
    match a with
    | ⟨0, _⟩ => rfl
    | ⟨1, _⟩ => rfl
  rw [← e1, e2]

end Cert.Bridge

end
-- ==== Proof.Result.lean ====
/-
  The kernel's result, read off its run and identified with the reference's.

  The last host stretch reshapes the second call's result array; that array is the contraction of the flattened input with
  the weight the second host stretch left; that weight is the first call's result array — the scaled product of the two
  gathered factors — flattened, with the residual scattered into it, and reshaped back. The gathers, the index
  normalisation and the scatter are the very operations the reference applies, so the kernel's result is the reference's
  term with its two host products replaced by the two whole-array functions, and those are equal to the products.
-/
import proofs.«176107_j24721831756588_1_alg».proof.Proof.WholeIdeal
import proofs.«176107_j24721831756588_1_alg».proof.Proof.ProductArray
import proofs.«176107_j24721831756588_1_alg».proof.Proof.SumArray
import proofs.«176107_j24721831756588_1_alg».proof.Proof.Bridge
import proofs.«176107_j24721831756588_1_alg».proof.Proof.Gen.ReferenceIdeal.Read
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What the host stretches compute -/

/-- The first stretch gathers the left factor exactly as the reference does, -/
theorem entry_U (c : Dev nD) : Reconstruct.arrU (Whole.E1 m) c
    = Cert.ReferenceIdeal.Read.val_main_v7 (F := Ideal) (m ((c : Thread nD τ).loc main_arg1)) (m ((c : Thread nD τ).loc main_arg2)) := by
  dsimp only [Reconstruct.arrU, Whole.E1, Gen.V1, Gen.V0, hostOps0]
  after_results
  rfl
/-- reshapes the scales to a row, -/
theorem entry_S (c : Dev nD) : Reconstruct.arrS (Whole.E1 m) c
    = shapeCast S1x256 (m ((c : Thread nD τ).loc main_arg3)) Facts₀.shapeCasts_S256_S1x256 := by
  dsimp only [Reconstruct.arrS, Whole.E1, Gen.V1, Gen.V0, hostOps0]
  after_results
  rfl
/-- and gathers the right factor as the reference does. -/
theorem entry_V (c : Dev nD) : Reconstruct.arrV (Whole.E1 m) c
    = Cert.ReferenceIdeal.Read.val_main_v15 (F := Ideal) (m ((c : Thread nD τ).loc main_arg4)) (m ((c : Thread nD τ).loc main_arg5)) := by
  dsimp only [Reconstruct.arrV, Whole.E1, Gen.V1, Gen.V0, hostOps0]
  after_results
  rfl

/-- The second stretch, from any contents `B` of the buffers: the input flattened, -/
theorem mid_X (B : Valuation τ sig (Elt Ideal)) :
    (StableHlo.after hostOps1 B (Proc.devRef .tc main_v27) : S512x4096.Idx → EReal)
      = shapeCast S512x4096 (B (Proc.devRef .tc main_arg0) : S4x128x4096.Idx → EReal) Facts₀.shapeCasts_S4x128x4096_S512x4096 := by
  dsimp only [hostOps1]
  after_results
  rfl
/-- and the first call's result flattened, the residual scattered into it with the reference's index normalisation,
    reshaped back. -/
theorem mid_W (B : Valuation τ sig (Elt Ideal)) :
    (StableHlo.after hostOps1 B (Proc.devRef .tc main_v26) : S4096x4096.Idx → EReal)
      = shapeCast S4096x4096 (Host.scatterAdd (F := Ideal) (φ := .f32) scatter_S16777216_S262144x1_S262144_n_0_0_1
          (shapeCast S16777216 (B (Proc.devRef .tc main_v17) : S4096x4096.Idx → EReal) Facts₀.shapeCasts_S4096x4096_S16777216)
          (Cert.ReferenceIdeal.Read.val_main_v26 (F := Ideal) (B (Proc.devRef .tc main_arg6)))
          (B (Proc.devRef .tc main_arg7))) Facts₀.shapeCasts_S16777216_S4096x4096 := by
  dsimp only [hostOps1]
  after_results
  rfl
/-- The last stretch reshapes the second call's result. -/
theorem last_out (B : Valuation τ sig (Elt Ideal)) :
    (StableHlo.after hostOps2 B (Proc.devRef .tc main_v29) : S4x128x4096.Idx → EReal)
      = shapeCast S4x128x4096 (B (Proc.devRef .tc main_v28) : S512x4096.Idx → EReal) Facts₀.shapeCasts_S512x4096_S4x128x4096 := by
  dsimp only [hostOps2]
  after_results
  rfl

/-! ## The two calls' operands and results -/

/-- An argument array is unchanged when the second call is entered. -/
theorem arg_at_two (c : Dev nD) (r : Ref sig .tc) (h1 : r ∉ ([main_v17] : List (Ref sig .tc))) (h0 : r ∉ Gen.hostOps0_W) :
    Gen.V2 m (Whole.outs m) c r = m ((c : Thread nD τ).loc r) :=
  (Gen.V2_of m (Whole.outs m) c r h1).trans (Gen.V1_of m c r h0)

/-- The first call's result array is the reference's first product. -/
theorem weight_eq (c : Dev nD) : (Gen.V2 m (Whole.outs m) c main_v17 : S4096x4096.Idx → EReal)
    = Cert.ReferenceIdeal.Read.val_main_v19 (F := Ideal) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Whole.V2_out m c).trans ?_
  refine (Whole.W2_arr m c 3).trans ?_
  refine (Reconstruct.final (Whole.E1 m) c).trans ?_
  rw [entry_U, entry_S, entry_V]
  exact Cert.Bridge.product_eq _ _ _ _ _ _

/-- The second call's left operand is the input flattened, -/
theorem input_eq (c : Dev nD) : Accumulate.arrX (Whole.E3 m) c
    = shapeCast S512x4096 (m ((c : Thread nD τ).loc main_arg0)) Facts₀.shapeCasts_S4x128x4096_S512x4096 := by
  refine (mid_X (Gen.V2 m (Whole.outs m) c)).trans ?_
  rw [arg_at_two m c main_arg0 (by decide) (by decide)]
/-- and its right operand is the reference's weight with the residual added. -/
theorem weight_sum_eq (c : Dev nD) : Accumulate.arrW (Whole.E3 m) c
    = Cert.ReferenceIdeal.Read.val_main_v28 (F := Ideal) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (mid_W (Gen.V2 m (Whole.outs m) c)).trans ?_
  rw [weight_eq, arg_at_two m c main_arg6 (by decide) (by decide), arg_at_two m c main_arg7 (by decide) (by decide)]
  rfl

/-! ## The result -/

/-- What the kernel's result buffer ends holding. -/
def value (c : Dev nD) : Buf (Elt Ideal) ((c.tc : Thread nD τ).loc main_v29) := Gen.V5 m (Whole.outs m) c main_v29

/-- It is the reference's result term of the same arguments. -/
theorem value_eq (c : Dev nD) : value m c
    = Cert.ReferenceIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (last_out (Gen.V4 m (Whole.outs m) c)).trans ?_
  rw [Whole.V4_out]
  refine (congrArg (fun y => shapeCast S4x128x4096 (y : S512x4096.Idx → EReal) Facts₀.shapeCasts_S512x4096_S4x128x4096)
    ((Whole.W4_arr m c 2).trans (Accumulate.final (Whole.E3 m) c))).trans ?_
  rw [input_eq, weight_sum_eq]
  exact Cert.Bridge.contraction_eq _ _ _ _ _ _ _ _ _ _

/-- The kernel's run with its result named: the result buffer at `value`, the arguments unchanged. -/
theorem run : θ_run defs (onTc (τ := τ) (main (F := Ideal))) ⟨m, fun _ => 0, ρ⟩ (fun r => ∀ c : Dev nD,
      r.2.mem ((c.tc : Thread nD τ).loc main_v29) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (Whole.mem_uc main_v29 (by decide)),
     (h c _ (Whole.mem_uc main_arg0 (by decide))).trans (Gen.V5_main_arg0 m (Whole.outs m) c),
     (h c _ (Whole.mem_uc main_arg1 (by decide))).trans (Gen.V5_main_arg1 m (Whole.outs m) c),
     (h c _ (Whole.mem_uc main_arg2 (by decide))).trans (Gen.V5_main_arg2 m (Whole.outs m) c),
     (h c _ (Whole.mem_uc main_arg3 (by decide))).trans (Gen.V5_main_arg3 m (Whole.outs m) c),
     (h c _ (Whole.mem_uc main_arg4 (by decide))).trans (Gen.V5_main_arg4 m (Whole.outs m) c),
     (h c _ (Whole.mem_uc main_arg5 (by decide))).trans (Gen.V5_main_arg5 m (Whole.outs m) c),
     (h c _ (Whole.mem_uc main_arg6 (by decide))).trans (Gen.V5_main_arg6 m (Whole.outs m) c),
     (h c _ (Whole.mem_uc main_arg7 (by decide))).trans (Gen.V5_main_arg7 m (Whole.outs m) c)⟩) (Whole.run m ρ)

end Cert.KernelIdeal.Result

end
-- ==== Proof.lean ====
/-
  The certificate's claim, assembled.

  The kernel builds a 4096 × 4096 weight as a scaled low-rank product (first pallas_call), adds a sparse residual into it
  (host scatter), and applies it to a 4 × 128 × 4096 input as input · weightᵀ (second pallas_call, the contraction taken
  1024 coordinates at a time into a scratch accumulator). The reference computes the same with two host products.

  Frames: both printed kernels run through the same chain of segments — host stretch, call, host stretch, call, host
  stretch — with every unscoped buffer at known contents between them; no segment writes an argument array. The
  reference's frame is its run with the result dropped.
  Equivalence on the extended reals: the first call's result array is, entry by entry, the reference's first product
  (the same sum over the 256 shared coordinates); the host glue between and around the calls is the reference's own; the
  second call's result, accumulated tile by tile, is the sum over all 4096 shared coordinates, because addition of
  extended reals is associative and commutative with zero neutral — so no finiteness of the inputs is used.
-/
import proofs.«176107_j24721831756588_1_alg».proof.Defs
import proofs.«176107_j24721831756588_1_alg».proof.Proof.Gen.Kernel
import proofs.«176107_j24721831756588_1_alg».proof.Proof.Gen.KernelIdeal
import proofs.«176107_j24721831756588_1_alg».proof.Proof.Gen.ReferenceIdeal
import proofs.«176107_j24721831756588_1_alg».proof.Proof.Gen.ReferenceIdeal.Run
import proofs.«176107_j24721831756588_1_alg».proof.Proof.Gen.ReferenceIdeal.Read
import proofs.«176107_j24721831756588_1_alg».proof.Proof.Gen.Pre_finite_inputs
import proofs.«176107_j24721831756588_1_alg».proof.Proof.WholeBits
import proofs.«176107_j24721831756588_1_alg».proof.Proof.WholeIdeal
import proofs.«176107_j24721831756588_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.Result.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
